-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S10000x128 : Shape := ⟨2, ![10000, 128]⟩
abbrev S10000x1 : Shape := ⟨2, ![10000, 1]⟩
abbrev S1600000x128 : Shape := ⟨2, ![1600000, 128]⟩
abbrev S1x128 : Shape := ⟨2, ![1, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 93
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S1600000x1, .f32⟩
  | .hbm, ⟨47, _⟩ => ⟨S1600000x128, .f32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S1600000x1, .f32⟩
  | .hbm, ⟨66, _⟩ => ⟨S1600000x128, .f32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x64, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x64, .f32⟩
  | .hbm, ⟨84, _⟩ => ⟨S1600000x1, .f32⟩
  | .hbm, ⟨85, _⟩ => ⟨S1600000x64, .f32⟩
  | .hbm, ⟨86, _⟩ => ⟨S1600000x64, .f32⟩
  | .hbm, ⟨87, _⟩ => ⟨S_, .f32⟩
  | .hbm, ⟨88, _⟩ => ⟨S100000x64, .f32⟩
  | .hbm, ⟨89, _⟩ => ⟨S1600000x1, .i32⟩
  | .hbm, ⟨90, _⟩ => ⟨S100000x64, .f32⟩
  | .hbm, ⟨91, _⟩ => ⟨S1x64, .f32⟩
  | .hbm, ⟨92, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x1, .f32⟩
  | .local _ .vmem, ⟨9, _⟩ => ⟨S10000x1, .f32⟩
  | .local _ .vmem, ⟨10, _⟩ => ⟨S128x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x1, .f32⟩
  | .local _ .vmem, ⟨17, _⟩ => ⟨S10000x1, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x1, .f32⟩
  | .local _ .vmem, ⟨23, _⟩ => ⟨S10000x1, .f32⟩
  | .local _ .vmem, ⟨24, _⟩ => ⟨S128x128, .f32⟩
  | .local _ .vmem, ⟨25, _⟩ => ⟨S1x128, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x1, .f32⟩
  | .local _ .vmem, ⟨31, _⟩ => ⟨S10000x1, .f32⟩
  | .local _ .vmem, ⟨32, _⟩ => ⟨S128x64, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S1x64, .f32⟩
  | .local _ .vmem, ⟨40, _⟩ => ⟨S10000x64, .f32⟩
  | .local _ .vmem, ⟨41, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_4 : Ref sig .tc := ⟨.hbm, 28, rfl⟩
abbrev main_call1_v0 : Ref sig .tc := ⟨.hbm, 29, rfl⟩
abbrev main_call1_v1 : Ref sig .tc := ⟨.hbm, 30, rfl⟩
abbrev main_v11 : Ref sig .tc := ⟨.hbm, 31, rfl⟩
abbrev main_cst_5 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_8 : Ref sig .tc := ⟨.hbm, 56, rfl⟩
abbrev main_v32 : Ref sig .tc := ⟨.hbm, 57, rfl⟩
abbrev main_v33 : Ref sig .tc := ⟨.hbm, 58, rfl⟩
abbrev main_c_9 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_c_12 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_13 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S10000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S10000x128_S10000x128_0_0 : ∀ a, (![0, 0] : Fin 2 → Nat) a + S10000x128.size a ≤ S10000x128.size a
  h_S10000x128 : 0 < S10000x128.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S100000x128.size a
  hwx1_4 : ∀ i : grid1.Coords, EltTy.bits .f32 = 32 ∨ (Rect.block (s := S100000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S10000x128.size a ≤ S100000x128.size a
  hwx3_4 : ∀ i : grid3.Coords, EltTy.bits .f32 = 32 ∨ (Rect.block (s := S100000x128) S10000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S100000x1.size a
  hwx4_1 : ∀ i : grid4.Coords, EltTy.bits .f32 = 32 ∨ (Rect.block (s := S100000x1) S10000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x64.size a ≤ S128x64.size a
  hwx4_2 : ∀ i : grid4.Coords, EltTy.bits .f32 = 32 ∨ (Rect.block (s := S128x64) S128x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .f32 = 32 ∨ (Rect.block (s := S100000x1) S10000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v30) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v45) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v46) S10000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v46) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v10) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg8) S128x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v47) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v60) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v61) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 118
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S1600000x1, .f32⟩
  | .hbm, ⟨47, _⟩ => ⟨S1600000x128, .f32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x1, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S1x128, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x128, .f32⟩
  | .hbm, ⟨75, _⟩ => ⟨S1600000x1, .f32⟩
  | .hbm, ⟨76, _⟩ => ⟨S1600000x128, .f32⟩
  | .hbm, ⟨77, _⟩ => ⟨S1600000x128, .f32⟩
  | .hbm, ⟨78, _⟩ => ⟨S_, .f32⟩
  | .hbm, ⟨79, _⟩ => ⟨S100000x128, .f32⟩
  | .hbm, ⟨80, _⟩ => ⟨S1600000x1, .i32⟩
  | .hbm, ⟨81, _⟩ => ⟨S100000x128, .f32⟩
  | .hbm, ⟨82, _⟩ => ⟨S100000x1, .f32⟩
  | .hbm, ⟨83, _⟩ => ⟨S100000x128, .f32⟩
  | .hbm, ⟨84, _⟩ => ⟨S100000x128, .f32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S100000x64, .f32⟩
  | .hbm, ⟨96, _⟩ => ⟨S_, .i32⟩
  | .hbm, ⟨97, _⟩ => ⟨S1600000, .i32⟩
  | .hbm, ⟨98, _⟩ => ⟨S1600000, .i1⟩
  | .hbm, ⟨99, _⟩ => ⟨S_, .i32⟩
  | .hbm, ⟨100, _⟩ => ⟨S1600000, .i32⟩
  | .hbm, ⟨101, _⟩ => ⟨S1600000, .i32⟩
  | .hbm, ⟨102, _⟩ => ⟨S1600000, .i32⟩
  | .hbm, ⟨103, _⟩ => ⟨S1600000x1, .i32⟩
  | .hbm, ⟨104, _⟩ => ⟨S1600000x64, .f32⟩
  | .hbm, ⟨105, _⟩ => ⟨S1600000x1, .f32⟩
  | .hbm, ⟨106, _⟩ => ⟨S1600000x64, .f32⟩
  | .hbm, ⟨107, _⟩ => ⟨S1600000x64, .f32⟩
  | .hbm, ⟨108, _⟩ => ⟨S_, .f32⟩
  | .hbm, ⟨109, _⟩ => ⟨S100000x64, .f32⟩
  | .hbm, ⟨110, _⟩ => ⟨S1600000x1, .i32⟩
  | .hbm, ⟨111, _⟩ => ⟨S100000x64, .f32⟩
  | .hbm, ⟨112, _⟩ => ⟨S100000x1, .f32⟩
  | .hbm, ⟨113, _⟩ => ⟨S100000x64, .f32⟩
  | .hbm, ⟨114, _⟩ => ⟨S100000x64, .f32⟩
  | .hbm, ⟨115, _⟩ => ⟨S1x64, .f32⟩
  | .hbm, ⟨116, _⟩ => ⟨S100000x64, .f32⟩
  | .hbm, ⟨117, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v7 : Ref sig .tc := ⟨.hbm, 23, rfl⟩
abbrev main_cst_3 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v10 : Ref sig .tc := ⟨.hbm, 30, rfl⟩
abbrev main_cst_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_6 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_call2_cst : Ref sig .tc := ⟨.hbm, 60, rfl⟩
abbrev main_call2_v0 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_8 : Ref sig .tc := ⟨.hbm, 66, rfl⟩
abbrev main_v40 : Ref sig .tc := ⟨.hbm, 67, rfl⟩
abbrev main_v41 : Ref sig .tc := ⟨.hbm, 68, rfl⟩
abbrev main_c_9 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_call3_cst : Ref sig .tc := ⟨.hbm, 89, rfl⟩
abbrev main_call3_v0 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_11 : Ref sig .tc := ⟨.hbm, 96, rfl⟩
abbrev main_v65 : Ref sig .tc := ⟨.hbm, 97, rfl⟩
abbrev main_v66 : Ref sig .tc := ⟨.hbm, 98, rfl⟩
abbrev main_c_12 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_13 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's whole run with its RESULT array named.

  The program is six kernel launches among stretches of host operations. The run is the fold of those fourteen
  segments over the launch memory: a host stretch replaces the buffers its operations write by the operations' values,
  a launch replaces each of its arrays by what the grid's write-backs leave there. The last fold, `Gen.W14 m ρ c`, is
  the contents of every unscoped buffer when @main returns. Here the run's post keeps, besides the ten argument
  arrays (unchanged), the result buffer `main_v62` at that fold's value; the other modules read the value.
-/
import proofs.«128982_j67327907332268_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last fold's
    value and the ten argument arrays end as launched. -/
theorem run : θ_run defs (onTc (τ := τ) (main (F := F))) ⟨m, fun _ => 0, ρ⟩ (fun r => ∀ c : Dev nD,
      r.2.mem ((c.tc : Thread nD τ).loc main_v62) = W14 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v62 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Out

end
-- ==== Proof.Layers.lean ====
/-
  The dense steps of a graph-convolution layer as whole-array functions, in the reference's own operations, and
  each read at one index.

  `scaleRows X n` multiplies row `r` of the node table `X` by the node's degree norm `n r` (a one-column array);
  `denseRelu` then multiplies by a weight matrix, adds a bias row and clamps at zero from below; `dense64` multiplies by
  the last layer's 128 × 64 weights; `scaleBias64` scales the 64-wide table and adds the last bias. At the ideal
  instance the host's dot product is the plain sum over the contracted axis, so an entry `(r, q)` of each result
  depends on row `r` of `X`, on `n r`, on column `q` of the weights and on entry `q` of the bias only.
  The one-column and one-row arrays come either from a reshape (the kernel's program) or from a broadcast that adds a
  unit axis (the reference): the two are the same function.
-/
import proofs.«128982_j67327907332268_1_alg».proof.Proof.Gen.ReferenceIdeal
import Idealize.ShloMosaic.PureOps.Ideal
import Idealize.ShloMosaic.Lib.ValueIdx
import Idealize.ShloMosaic.Lib.Pipeline.Value
import Idealize.ShloMosaic.PureOps.Ideal.Laws

noncomputable section

namespace Cert.Layers

open Cert.ReferenceIdeal Cert.ReferenceIdeal.Gen Idealize.ShloMosaic Idealize.ShloMosaic.ValueIdx
open scoped BigOperators

/-- As in the blockwise case: a contraction of the left operand's axis 1 with the right operand's axis 0, one
    contracted axis of extent 128, is the sum over `k : Fin 128` of left `(p, k)` times right `(k, q)`. -/
theorem sum_contr128 {A B : Nat} (d : DotDims (⟨2, ![A, 128]⟩ : Shape) (⟨2, ![128, B]⟩ : Shape) (⟨2, ![A, B]⟩ : Shape))
    (hr : d.contr.rank = 1) (hs : d.contr.size ⟨0, by omega⟩ = 128)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : (⟨2, ![A, 128]⟩ : Shape).Idx → EReal) (r : (⟨2, ![128, B]⟩ : Shape).Idx → EReal) (p : Fin A) (q : Fin B) :
    (∑ k : d.contr.Idx, l (d.lhsIdx (ix2 p q) k) * r (d.rhsIdx (ix2 p q) k)) = ∑ k : Fin 128, l (ix2 p k) * r (ix2 k q) := by
  rw [← Equiv.sum_comp (contrEquiv1 d 128 hr hs).symm]
  refine Finset.sum_congr rfl fun k _ => ?_
  have hk := contrEquiv1_symm_val d 128 hr hs k
  have el : d.lhsIdx (ix2 p q) ((contrEquiv1 d 128 hr hs).symm k) = ix2 p k := funext fun a => Fin.ext (by
    match a with
    | ⟨0, _⟩ => exact hl0 _ _
    | ⟨1, _⟩ => exact (hl1 _ _).trans hk)
  have er : d.rhsIdx (ix2 p q) ((contrEquiv1 d 128 hr hs).symm k) = ix2 k q := funext fun a => Fin.ext (by
    match a with
    | ⟨0, _⟩ => exact (hr0 _ _).trans hk
    | ⟨1, _⟩ => exact hr1 _ _)
  rw [el, er]

/-! ## The steps -/

/-- Row `r` of `X` times the norm of node `r`. -/
def scaleRows (X : FVec Ideal S100000x128 .f32) (n : FVec Ideal S100000x1 .f32) : FVec Ideal S100000x128 .f32 :=
  mulf X (broadcastInDim S100000x128 ![0, 1] Facts₀.bcast_S100000x1_S100000x128_0_1 n)

/-- Scale, multiply by a 128 × 128 weight matrix, add the bias row, clamp at zero. -/
def denseRelu (X : FVec Ideal S100000x128 .f32) (n : FVec Ideal S100000x1 .f32) (W : FVec Ideal S128x128 .f32) (b : FVec Ideal S1x128 .f32) :
    FVec Ideal S100000x128 .f32 :=
  maximumf (addf (Host.dotGeneral (F := Ideal) dot_S100000x128_S128x128_S100000x128_1_0_0_1_n_n none (scaleRows X n) W)
      (broadcastInDim S100000x128 ![0, 1] Facts₀.bcast_S1x128_S100000x128_0_1 b))
    (broadcastInDim S100000x128 ![] Facts₀.bcast_S_S100000x128 (constant (F := Ideal) S_ .f32 0x00000000#32))

/-- Scale and multiply by the 128 × 64 weight matrix. -/
def dense64 (X : FVec Ideal S100000x128 .f32) (n : FVec Ideal S100000x1 .f32) (W : FVec Ideal S128x64 .f32) : FVec Ideal S100000x64 .f32 :=
  Host.dotGeneral (F := Ideal) dot_S100000x128_S128x64_S100000x64_1_0_0_1_n_n none (scaleRows X n) W

/-- Scale the 64-wide table and add the bias row. -/
def scaleBias64 (X : FVec Ideal S100000x64 .f32) (n : FVec Ideal S100000x1 .f32) (b : FVec Ideal S1x64 .f32) : FVec Ideal S100000x64 .f32 :=
  addf (mulf X (broadcastInDim S100000x64 ![0, 1] Facts₀.bcast_S100000x1_S100000x64_0_1 n))
    (broadcastInDim S100000x64 ![0, 1] Facts₀.bcast_S1x64_S100000x64_0_1 b)

/-! ## Each read at an index -/

theorem scaleRows_apply (X : FVec Ideal S100000x128 .f32) (n : FVec Ideal S100000x1 .f32) (r : Fin 100000) (q : Fin 128) :
    scaleRows X n (ix2 r q) = X (ix2 r q) * n (ix2 r (0 : Fin 1)) := by
  unfold scaleRows
  rw [mulf_apply]
  refine congrArg (X (ix2 r q) * ·) ?_
  exact broadcastInDim_apply _ _ n (ix2 r q) (ix2 r (0 : Fin 1)) (fun a => match a with
    | ⟨0, _⟩ => by show r.val = if (100000 : Nat) = 1 then 0 else r.val; rw [if_neg (by decide)]
    | ⟨1, _⟩ => by show 0 = if (1 : Nat) = 1 then 0 else q.val; rw [if_pos rfl])

theorem dotRef128_lhs0 (j : S100000x128.Idx) (q : dot_S100000x128_S128x128_S100000x128_1_0_0_1_n_n.contr.Idx) :
    (dot_S100000x128_S128x128_S100000x128_1_0_0_1_n_n.lhsIdx j q 0).val = (j 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem dotRef128_rhs1 (j : S100000x128.Idx) (q : dot_S100000x128_S128x128_S100000x128_1_0_0_1_n_n.contr.Idx) :
    (dot_S100000x128_S128x128_S100000x128_1_0_0_1_n_n.rhsIdx j q 1).val = (j 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl
theorem dotRef64_lhs0 (j : S100000x64.Idx) (q : dot_S100000x128_S128x64_S100000x64_1_0_0_1_n_n.contr.Idx) :
    (dot_S100000x128_S128x64_S100000x64_1_0_0_1_n_n.lhsIdx j q 0).val = (j 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem dotRef64_rhs1 (j : S100000x64.Idx) (q : dot_S100000x128_S128x64_S100000x64_1_0_0_1_n_n.contr.Idx) :
    (dot_S100000x128_S128x64_S100000x64_1_0_0_1_n_n.rhsIdx j q 1).val = (j 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The host's product with a 128-column matrix at `(r, q)`. -/
theorem hostDot128_apply (Y : FVec Ideal S100000x128 .f32) (W : FVec Ideal S128x128 .f32) (r : Fin 100000) (q : Fin 128) :
    Host.dotGeneral (F := Ideal) dot_S100000x128_S128x128_S100000x128_1_0_0_1_n_n none Y W (ix2 r q) = ∑ k : Fin 128, Y (ix2 r k) * W (ix2 k q) := by
  simp only [Host.dotGeneral]
  rw [Ideal.dotGeneral_apply]
  exact sum_contr128 dot_S100000x128_S128x128_S100000x128_1_0_0_1_n_n rfl rfl dotRef128_lhs0
    (fun j k => dot_S100000x128_S128x128_S100000x128_1_0_0_1_n_n.lhsIdx_val_of_single rfl j k)
    (fun j k => dot_S100000x128_S128x128_S100000x128_1_0_0_1_n_n.rhsIdx_val_of_single rfl j k) dotRef128_rhs1 Y W r q

/-- The host's product with the 64-column matrix at `(r, q)`. -/
theorem hostDot64_apply (Y : FVec Ideal S100000x128 .f32) (W : FVec Ideal S128x64 .f32) (r : Fin 100000) (q : Fin 64) :
    Host.dotGeneral (F := Ideal) dot_S100000x128_S128x64_S100000x64_1_0_0_1_n_n none Y W (ix2 r q) = ∑ k : Fin 128, Y (ix2 r k) * W (ix2 k q) := by
  simp only [Host.dotGeneral]
  rw [Ideal.dotGeneral_apply]
  exact sum_contr128 dot_S100000x128_S128x64_S100000x64_1_0_0_1_n_n rfl rfl dotRef64_lhs0
    (fun j k => dot_S100000x128_S128x64_S100000x64_1_0_0_1_n_n.lhsIdx_val_of_single rfl j k)
    (fun j k => dot_S100000x128_S128x64_S100000x64_1_0_0_1_n_n.rhsIdx_val_of_single rfl j k) dotRef64_rhs1 Y W r q

theorem denseRelu_apply (X : FVec Ideal S100000x128 .f32) (n : FVec Ideal S100000x1 .f32) (W : FVec Ideal S128x128 .f32) (b : FVec Ideal S1x128 .f32)
    (r : Fin 100000) (q : Fin 128) :
    denseRelu X n W b (ix2 r q)
      = max ((∑ k : Fin 128, (X (ix2 r k) * n (ix2 r (0 : Fin 1))) * W (ix2 k q)) + b (ix2 (0 : Fin 1) q)) (Ideal.ofBits .f32 0x00000000#32) := by
  unfold denseRelu
  rw [maximumf_apply, addf_apply, hostDot128_apply]
  refine congrArg₂ max (congrArg₂ (· + ·) (Finset.sum_congr rfl fun k _ => by rw [scaleRows_apply]) ?_) ?_
  · exact broadcastInDim_apply _ _ b (ix2 r q) (ix2 (0 : Fin 1) q) (fun a => match a with
      | ⟨0, _⟩ => by show 0 = if (1 : Nat) = 1 then 0 else r.val; rw [if_pos rfl]
      | ⟨1, _⟩ => by show q.val = if (128 : Nat) = 1 then 0 else q.val; rw [if_neg (by decide)])
  · exact (broadcastInDim_apply _ _ (constant (F := Ideal) S_ .f32 0x00000000#32) (ix2 r q) ix0 (fun a => a.elim0)).trans rfl

theorem dense64_apply (X : FVec Ideal S100000x128 .f32) (n : FVec Ideal S100000x1 .f32) (W : FVec Ideal S128x64 .f32) (r : Fin 100000) (q : Fin 64) :
    dense64 X n W (ix2 r q) = ∑ k : Fin 128, (X (ix2 r k) * n (ix2 r (0 : Fin 1))) * W (ix2 k q) := by
  unfold dense64
  rw [hostDot64_apply]
  exact Finset.sum_congr rfl fun k _ => by rw [scaleRows_apply]

theorem scaleBias64_apply (X : FVec Ideal S100000x64 .f32) (n : FVec Ideal S100000x1 .f32) (b : FVec Ideal S1x64 .f32) (r : Fin 100000) (q : Fin 64) :
    scaleBias64 X n b (ix2 r q) = X (ix2 r q) * n (ix2 r (0 : Fin 1)) + b (ix2 (0 : Fin 1) q) := by
  unfold scaleBias64
  rw [addf_apply, mulf_apply]
  refine congrArg₂ (· + ·) (congrArg (X (ix2 r q) * ·) ?_) ?_
  · exact broadcastInDim_apply _ _ n (ix2 r q) (ix2 r (0 : Fin 1)) (fun a => match a with
      | ⟨0, _⟩ => by show r.val = if (100000 : Nat) = 1 then 0 else r.val; rw [if_neg (by decide)]
      | ⟨1, _⟩ => by show 0 = if (1 : Nat) = 1 then 0 else q.val; rw [if_pos rfl])
  · exact broadcastInDim_apply _ _ b (ix2 r q) (ix2 (0 : Fin 1) q) (fun a => match a with
      | ⟨0, _⟩ => by show 0 = if (1 : Nat) = 1 then 0 else r.val; rw [if_pos rfl]
      | ⟨1, _⟩ => by show q.val = if (64 : Nat) = 1 then 0 else q.val; rw [if_neg (by decide)])

/-! ## A reshape that adds a unit axis is the broadcast that adds it -/

theorem column_eq (v : FVec Ideal S100000 .f32) (h : S100000.ShapeCasts S100000x1) :
    shapeCast S100000x1 v h = broadcastInDim S100000x1 ![0] Facts₀.bcast_S100000_S100000x1_0 v := by
  funext j
  obtain ⟨r, z, rfl⟩ : ∃ (r : Fin 100000) (z : Fin 1), j = ix2 r z := ⟨j 0, j 1, eq_ix2 j⟩
  have e1 : shapeCast S100000x1 v h (ix2 r z) = v (ix1 r) :=
    shapeCast_apply v h (ix2 r z) (ix1 r) (by rw [Shape.rowMajor_val_one, Shape.rowMajor_val_two]; show r.val = r.val * 1 + z.val; omega)
  have e2 : broadcastInDim S100000x1 ![0] Facts₀.bcast_S100000_S100000x1_0 v (ix2 r z) = v (ix1 r) :=
    broadcastInDim_apply _ _ v (ix2 r z) (ix1 r) (fun a => match a with
      | ⟨0, _⟩ => by show r.val = if (100000 : Nat) = 1 then 0 else r.val; rw [if_neg (by decide)])
  rw [e1, e2]

theorem row128_eq (v : FVec Ideal S128 .f32) (h : S128.ShapeCasts S1x128) :
    shapeCast S1x128 v h = broadcastInDim S1x128 ![1] Facts₀.bcast_S128_S1x128_1 v := by
  funext j
  obtain ⟨z, q, rfl⟩ : ∃ (z : Fin 1) (q : Fin 128), j = ix2 z q := ⟨j 0, j 1, eq_ix2 j⟩
  have e1 : shapeCast S1x128 v h (ix2 z q) = v (ix1 q) :=
    shapeCast_apply v h (ix2 z q) (ix1 q) (by rw [Shape.rowMajor_val_one, Shape.rowMajor_val_two]; show q.val = z.val * 128 + q.val; omega)
  have e2 : broadcastInDim S1x128 ![1] Facts₀.bcast_S128_S1x128_1 v (ix2 z q) = v (ix1 q) :=
    broadcastInDim_apply _ _ v (ix2 z q) (ix1 q) (fun a => match a with
      | ⟨0, _⟩ => by show q.val = if (128 : Nat) = 1 then 0 else q.val; rw [if_neg (by decide)])
  rw [e1, e2]

theorem row64_eq (v : FVec Ideal S64 .f32) (h : S64.ShapeCasts S1x64) :
    shapeCast S1x64 v h = broadcastInDim S1x64 ![1] Facts₀.bcast_S64_S1x64_1 v := by
  funext j
  obtain ⟨z, q, rfl⟩ : ∃ (z : Fin 1) (q : Fin 64), j = ix2 z q := ⟨j 0, j 1, eq_ix2 j⟩
  have e1 : shapeCast S1x64 v h (ix2 z q) = v (ix1 q) :=
    shapeCast_apply v h (ix2 z q) (ix1 q) (by rw [Shape.rowMajor_val_one, Shape.rowMajor_val_two]; show q.val = z.val * 64 + q.val; omega)
  have e2 : broadcastInDim S1x64 ![1] Facts₀.bcast_S64_S1x64_1 v (ix2 z q) = v (ix1 q) :=
    broadcastInDim_apply _ _ v (ix2 z q) (ix1 q) (fun a => match a with
      | ⟨0, _⟩ => by show q.val = if (64 : Nat) = 1 then 0 else q.val; rw [if_neg (by decide)])
  rw [e1, e2]

end Cert.Layers

end
-- ==== Proof.Edges.lean ====
/-
  The irregular steps of the network as whole-array functions in the reference's own operations, and the network.

  `degNorm idx` counts, for every node, the edges whose endpoint array `idx` names it (a scatter-add of ones),
  clamps the count at one from below and raises it to the power −1/2. `edgeAgg H src dst ew` gathers, for every
  edge, the row of `H` its source names (a negative source index wrapped once by the node count), multiplies the row by the
  edge's weight and adds it into the row of the result its destination names. `network` is the three layers: each
  scales by the out-degree norm, (for the last layer) multiplies by the weights, aggregates over the edges, scales by
  the in-degree norm, (for the first two) multiplies by the weights, adds the bias, and (for the first two) clamps at zero.
-/
import proofs.«128982_j67327907332268_1_alg».proof.Proof.Layers

noncomputable section

namespace Cert.Layers

open Cert.ReferenceIdeal Cert.ReferenceIdeal.Gen Idealize.ShloMosaic

/-- An edge-endpoint array: one 32-bit node index per edge. -/
abbrev EdgeIdx := (⟨S1600000, .i32⟩ : BufTy).Contents (Elt Ideal)

/-- The number of edges per node whose endpoint (by the array `idx`) is that node: ones added into a table of zeros. -/
def degCount (idx : EdgeIdx) : FVec Ideal S100000 .f32 :=
  Host.scatterAdd (F := Ideal) scatter_S100000_S1600000x1_S1600000_n_0_0_1
    (broadcastInDim S100000 ![] Facts₀.bcast_S_S100000 (constant (F := Ideal) S_ .f32 0x00000000#32))
    (broadcastInDim S1600000x1 ![0] Facts₀.bcast_S1600000_S1600000x1_0 idx)
    (broadcastInDim S1600000 ![] Facts₀.bcast_S_S1600000 (constant (F := Ideal) S_ .f32 0x3F800000#32))

/-- Node `r`'s degree norm: (max 1 (the number of edges whose endpoint is `r`)) ^ (−1/2). -/
def degNorm (idx : EdgeIdx) : FVec Ideal S100000 .f32 :=
  Host.powf (F := Ideal)
    (maximumf (broadcastInDim S100000 ![] Facts₀.bcast_S_S100000 (id (constant (F := Ideal) S_ .f32 0x3F800000#32))) (degCount idx))
    (broadcastInDim S100000 ![] Facts₀.bcast_S_S100000 (constant (F := Ideal) S_ .f32 0xBF000000#32))

/-- The degree norm as a one-column array. -/
def normCol (idx : EdgeIdx) : FVec Ideal S100000x1 .f32 :=
  broadcastInDim S100000x1 ![0] Facts₀.bcast_S100000_S100000x1_0 (degNorm idx)

/-- The source indices with a negative one wrapped by the node count. -/
def wrapped (src : EdgeIdx) : (⟨S1600000x1, .i32⟩ : BufTy).Contents (Elt Ideal) :=
  broadcastInDim S1600000x1 ![0] Facts₀.bcast_S1600000_S1600000x1_0
    (select (cmpi .slt src (broadcastInDim S1600000 ![] Facts₀.bcast_S_S1600000 (constantI S_ 32 0#32)))
      (addi src (broadcastInDim S1600000 ![] Facts₀.bcast_S_S1600000 (constantI S_ 32 100000#32))) src)

/-- Gather rows by source, weight by the edge, add into rows by destination: 128 columns. -/
def edgeAgg128 (H : FVec Ideal S100000x128 .f32) (src dst : EdgeIdx) (ew : FVec Ideal S1600000 .f32) : FVec Ideal S100000x128 .f32 :=
  Host.scatterAdd (F := Ideal) scatter_S100000x128_S1600000x1_S1600000x128_1_0_0_1
    (broadcastInDim S100000x128 ![] Facts₀.bcast_S_S100000x128 (constant (F := Ideal) S_ .f32 0x00000000#32))
    (broadcastInDim S1600000x1 ![0] Facts₀.bcast_S1600000_S1600000x1_0 dst)
    (mulf (Host.gather gather_S100000x128_S1600000x1_S1600000x128_1_0_n_n_0_1_1128 H (wrapped src))
      (broadcastInDim S1600000x128 ![0, 1] Facts₀.bcast_S1600000x1_S1600000x128_0_1
        (broadcastInDim S1600000x1 ![0] Facts₀.bcast_S1600000_S1600000x1_0 ew)))

/-- The same with 64 columns. -/
def edgeAgg64 (H : FVec Ideal S100000x64 .f32) (src dst : EdgeIdx) (ew : FVec Ideal S1600000 .f32) : FVec Ideal S100000x64 .f32 :=
  Host.scatterAdd (F := Ideal) scatter_S100000x64_S1600000x1_S1600000x64_1_0_0_1
    (broadcastInDim S100000x64 ![] Facts₀.bcast_S_S100000x64 (constant (F := Ideal) S_ .f32 0x00000000#32))
    (broadcastInDim S1600000x1 ![0] Facts₀.bcast_S1600000_S1600000x1_0 dst)
    (mulf (Host.gather gather_S100000x64_S1600000x1_S1600000x64_1_0_n_n_0_1_164 H (wrapped src))
      (broadcastInDim S1600000x64 ![0, 1] Facts₀.bcast_S1600000x1_S1600000x64_0_1
        (broadcastInDim S1600000x1 ![0] Facts₀.bcast_S1600000_S1600000x1_0 ew)))

/-- A bias vector as a one-row array. -/
def biasRow128 (b : FVec Ideal S128 .f32) : FVec Ideal S1x128 .f32 := broadcastInDim S1x128 ![1] Facts₀.bcast_S128_S1x128_1 b
def biasRow64 (b : FVec Ideal S64 .f32) : FVec Ideal S1x64 .f32 := broadcastInDim S1x64 ![1] Facts₀.bcast_S64_S1x64_1 b

/-- One of the first two layers. -/
def layer (H : FVec Ideal S100000x128 .f32) (src dst : EdgeIdx) (ew : FVec Ideal S1600000 .f32)
    (W : FVec Ideal S128x128 .f32) (b : FVec Ideal S128 .f32) : FVec Ideal S100000x128 .f32 :=
  denseRelu (edgeAgg128 (scaleRows H (normCol src)) src dst ew) (normCol dst) W (biasRow128 b)

/-- The three layers. -/
def network (X : FVec Ideal S100000x128 .f32) (src dst : EdgeIdx) (ew : FVec Ideal S1600000 .f32)
    (W0 : FVec Ideal S128x128 .f32) (b0 : FVec Ideal S128 .f32) (W1 : FVec Ideal S128x128 .f32) (b1 : FVec Ideal S128 .f32)
    (W2 : FVec Ideal S128x64 .f32) (b2 : FVec Ideal S64 .f32) : FVec Ideal S100000x64 .f32 :=
  scaleBias64 (edgeAgg64 (dense64 (layer (layer X src dst ew W0 b0) src dst ew W1 b1) (normCol src) W2) src dst ew) (normCol dst) (biasRow64 b2)

end Cert.Layers

end
-- ==== Proof.Stages.lean ====
/-
  The host stretches of the idealized kernel's program, one at a time, over ANY buffer contents.

  Each stretch of host operations is read at the buffers the rest of the run uses, as a function of the contents `V`
  the stretch starts from: the two node-degree counts (a scatter-add of ones by an endpoint array), their clamp at
  one from below, their power −1/2 reshaped to a one-column array; and, three times, the edge aggregation (gather by
  source, weight, scatter-add by destination) together with the reshape of a bias vector to a one-row array.
  The edge steps are stated with the reference's own dimension records, which have the same fields as the kernel
  program's.
-/
import proofs.«128982_j67327907332268_1_alg».proof.Proof.Gen.KernelIdeal.Launch
import proofs.«128982_j67327907332268_1_alg».proof.Proof.Edges

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo

/-! ## The two programs' dimension records have the same fields -/

theorem scatterDeg_eq : Cert.KernelIdeal.scatter_S100000_S1600000x1_S1600000_n_0_0_1 = Cert.ReferenceIdeal.scatter_S100000_S1600000x1_S1600000_n_0_0_1 := rfl
theorem gather128_eq : Cert.KernelIdeal.gather_S100000x128_S1600000x1_S1600000x128_1_0_n_n_0_1_1128 = Cert.ReferenceIdeal.gather_S100000x128_S1600000x1_S1600000x128_1_0_n_n_0_1_1128 := rfl
theorem scatter128_eq : Cert.KernelIdeal.scatter_S100000x128_S1600000x1_S1600000x128_1_0_0_1 = Cert.ReferenceIdeal.scatter_S100000x128_S1600000x1_S1600000x128_1_0_0_1 := rfl
theorem gather64_eq : Cert.KernelIdeal.gather_S100000x64_S1600000x1_S1600000x64_1_0_n_n_0_1_164 = Cert.ReferenceIdeal.gather_S100000x64_S1600000x1_S1600000x64_1_0_n_n_0_1_164 := rfl
theorem scatter64_eq : Cert.KernelIdeal.scatter_S100000x64_S1600000x1_S1600000x64_1_0_0_1 = Cert.ReferenceIdeal.scatter_S100000x64_S1600000x1_S1600000x64_1_0_0_1 := rfl

variable (V : Valuation τ sig (Elt Ideal))

set_option maxHeartbeats 2000000

/-! ## The degree norms -/

theorem count_out : StableHlo.after hostOps0 V (Proc.devRef .tc main_v3) = Layers.degCount (V (Proc.devRef .tc main_arg1)) := by
  after_results_simp
  unfold Layers.degCount
  rw [← scatterDeg_eq]
theorem count_in : StableHlo.after hostOps0 V (Proc.devRef .tc main_v6) = Layers.degCount (V (Proc.devRef .tc main_arg2)) := by
  after_results_simp
  unfold Layers.degCount
  rw [← scatterDeg_eq]
theorem one_out : StableHlo.after hostOps0 V (Proc.devRef .tc main_cst_2) = constant (F := Ideal) S_ .f32 0x3F800000#32 := by
  after_results
theorem clamp_out : StableHlo.after hostOps0_1 V (Proc.devRef .tc main_v7)
    = (maximumf (F := Ideal) (broadcastInDim S100000 ![] Facts₀.bcast_S_S100000 (id (V (Proc.devRef .tc main_cst_2)))) (V (Proc.devRef .tc main_v3)) : FVec Ideal S100000 .f32) := by
  after_results
  rfl
theorem clamp_out_keep : StableHlo.after hostOps0_1 V (Proc.devRef .tc main_v6) = (V (Proc.devRef .tc main_v6)) := by
  after_results
theorem norm_out : StableHlo.after hostOps0_2 V (Proc.devRef .tc main_v10)
    = shapeCast S100000x1 (Host.powf (F := Ideal) (V (Proc.devRef .tc main_v7)) (broadcastInDim S100000 ![] Facts₀.bcast_S_S100000 (constant (F := Ideal) S_ .f32 0xBF000000#32)))
        Facts₀.shapeCasts_S100000_S100000x1 := by
  after_results
  rfl
theorem norm_out_keep : StableHlo.after hostOps0_2 V (Proc.devRef .tc main_v6) = (V (Proc.devRef .tc main_v6)) := by
  after_results
theorem one_in : StableHlo.after hostOps0_2 V (Proc.devRef .tc main_cst_4) = constant (F := Ideal) S_ .f32 0x3F800000#32 := by
  after_results
theorem clamp_in : StableHlo.after hostOps0_3 V (Proc.devRef .tc main_v11)
    = (maximumf (F := Ideal) (broadcastInDim S100000 ![] Facts₀.bcast_S_S100000 (id (V (Proc.devRef .tc main_cst_4)))) (V (Proc.devRef .tc main_v6)) : FVec Ideal S100000 .f32) := by
  after_results
  rfl
theorem clamp_in_keep : StableHlo.after hostOps0_3 V (Proc.devRef .tc main_v10) = (V (Proc.devRef .tc main_v10)) := by
  after_results
theorem norm_in : StableHlo.after hostOps0_4 V (Proc.devRef .tc main_v14)
    = shapeCast S100000x1 (Host.powf (F := Ideal) (V (Proc.devRef .tc main_v11)) (broadcastInDim S100000 ![] Facts₀.bcast_S_S100000 (constant (F := Ideal) S_ .f32 0xBF000000#32)))
        Facts₀.shapeCasts_S100000_S100000x1 := by
  after_results
  rfl
theorem norm_in_keep : StableHlo.after hostOps0_4 V (Proc.devRef .tc main_v10) = (V (Proc.devRef .tc main_v10)) := by
  after_results

/-! ## The three edge aggregations and the bias rows -/

theorem edges1 : StableHlo.after hostOps1 V (Proc.devRef .tc main_v28)
    = Layers.edgeAgg128 (V (Proc.devRef .tc main_v15)) (V (Proc.devRef .tc main_arg1)) (V (Proc.devRef .tc main_arg2)) (V (Proc.devRef .tc main_arg3)) := by
  after_results_simp
  unfold Layers.edgeAgg128 Layers.wrapped
  rw [← gather128_eq, ← scatter128_eq]
theorem bias1 : StableHlo.after hostOps1 V (Proc.devRef .tc main_v29) = shapeCast S1x128 (V (Proc.devRef .tc main_arg5)) Facts₀.shapeCasts_S128_S1x128 := by
  after_results
  rfl
theorem edges2 : StableHlo.after hostOps3 V (Proc.devRef .tc main_v44)
    = Layers.edgeAgg128 (V (Proc.devRef .tc main_v31)) (V (Proc.devRef .tc main_arg1)) (V (Proc.devRef .tc main_arg2)) (V (Proc.devRef .tc main_arg3)) := by
  after_results_simp
  unfold Layers.edgeAgg128 Layers.wrapped
  rw [← gather128_eq, ← scatter128_eq]
theorem bias2 : StableHlo.after hostOps3 V (Proc.devRef .tc main_v45) = shapeCast S1x128 (V (Proc.devRef .tc main_arg7)) Facts₀.shapeCasts_S128_S1x128 := by
  after_results
  rfl
theorem edges3 : StableHlo.after hostOps5 V (Proc.devRef .tc main_v60)
    = Layers.edgeAgg64 (V (Proc.devRef .tc main_v47)) (V (Proc.devRef .tc main_arg1)) (V (Proc.devRef .tc main_arg2)) (V (Proc.devRef .tc main_arg3)) := by
  after_results_simp
  unfold Layers.edgeAgg64 Layers.wrapped
  rw [← gather64_eq, ← scatter64_eq]
theorem bias3 : StableHlo.after hostOps5 V (Proc.devRef .tc main_v61) = shapeCast S1x64 (V (Proc.devRef .tc main_arg9)) Facts₀.shapeCasts_S64_S1x64 := by
  after_results
  rfl

end Cert.KernelIdeal.Stages

end
-- ==== Proof.Bodies.lean ====
/-
  The six kernel bodies as pure functions of their loaded blocks, read at one index.

  Every body scales row `p` of its first block by the row's entry of a one-column block (the degree norm). Two bodies
  stop there; two go on to multiply the scaled block by a weight matrix, add a bias row and clamp at zero from below;
  one multiplies by the weight matrix only; one adds the bias row only. At the ideal instance a change of float
  format is the identity and the matrix unit's product into a zero accumulator is the plain sum over the contracted
  axis, so each entry of a body's result is an explicit expression of one row of the data block, one norm entry,
  one column of the weights and one bias entry.
-/
import proofs.«128982_j67327907332268_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bodies

open Cert.KernelIdeal Cert.KernelIdeal.Gen Idealize.ShloMosaic Idealize.ShloMosaic.ValueIdx
open scoped BigOperators

/-! ## A product of an [A, 128] matrix with a [128, B] matrix, as a sum over the 128 middle indices -/

/-- For a contraction of the left operand's axis 1 with the right operand's axis 0 (one contracted axis of extent
    128, the operand indices as the four hypotheses spell them) the sum over the contraction's index type is the
    sum over `k : Fin 128` of left `(p, k)` times right `(k, q)`. -/
theorem sum_contr128 {A B : Nat} (d : DotDims (⟨2, ![A, 128]⟩ : Shape) (⟨2, ![128, B]⟩ : Shape) (⟨2, ![A, B]⟩ : Shape))
    (hr : d.contr.rank = 1) (hs : d.contr.size ⟨0, by omega⟩ = 128)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : (⟨2, ![A, 128]⟩ : Shape).Idx → EReal) (r : (⟨2, ![128, B]⟩ : Shape).Idx → EReal) (p : Fin A) (q : Fin B) :
    (∑ k : d.contr.Idx, l (d.lhsIdx (ix2 p q) k) * r (d.rhsIdx (ix2 p q) k)) = ∑ k : Fin 128, l (ix2 p k) * r (ix2 k q) := by
  rw [← Equiv.sum_comp (contrEquiv1 d 128 hr hs).symm]
  refine Finset.sum_congr rfl fun k _ => ?_
  have hk := contrEquiv1_symm_val d 128 hr hs k
  have el : d.lhsIdx (ix2 p q) ((contrEquiv1 d 128 hr hs).symm k) = ix2 p k := funext fun a => Fin.ext (by
    match a with
    | ⟨0, _⟩ => exact hl0 _ _
    | ⟨1, _⟩ => exact (hl1 _ _).trans hk)
  have er : d.rhsIdx (ix2 p q) ((contrEquiv1 d 128 hr hs).symm k) = ix2 k q := funext fun a => Fin.ext (by
    match a with
    | ⟨0, _⟩ => exact (hr0 _ _).trans hk
    | ⟨1, _⟩ => exact hr1 _ _)
  rw [el, er]

variable [Facts]

/-! ## The layout steps of the bodies -/

/-- A one-column block broadcast along 128 lanes: entry `(p, q)` is the column's entry of row `p`. -/
theorem colBroadcast128 (n : Vec Ideal S10000x1 .f32) (p : Fin 10000) (q : Fin 128) :
    broadcastTo S10000x128 (shapeCast S10000x1 n Facts₀.shapeCasts_S10000x1_S10000x1) Facts₀.broadcasts_S10000x1_S10000x128 (ix2 p q)
      = n (ix2 p (0 : Fin 1)) := by
  rw [shapeCast_self]
  exact broadcastTo_apply n _ (ix2 p q) (ix2 p (0 : Fin 1)) (fun a => match a with
    | ⟨0, _⟩ => by show p.val = if (10000 : Nat) = 1 then 0 else p.val; rw [if_neg (by decide)]
    | ⟨1, _⟩ => by show 0 = if (1 : Nat) = 1 then 0 else q.val; rw [if_pos rfl])

/-- The same along 64 lanes. -/
theorem colBroadcast64 (n : Vec Ideal S10000x1 .f32) (p : Fin 10000) (q : Fin 64) :
    broadcastTo S10000x64 (shapeCast S10000x1 n Facts₀.shapeCasts_S10000x1_S10000x1) Facts₀.broadcasts_S10000x1_S10000x64 (ix2 p q)
      = n (ix2 p (0 : Fin 1)) := by
  rw [shapeCast_self]
  exact broadcastTo_apply n _ (ix2 p q) (ix2 p (0 : Fin 1)) (fun a => match a with
    | ⟨0, _⟩ => by show p.val = if (10000 : Nat) = 1 then 0 else p.val; rw [if_neg (by decide)]
    | ⟨1, _⟩ => by show 0 = if (1 : Nat) = 1 then 0 else q.val; rw [if_pos rfl])

/-- A one-row block broadcast down 10000 rows: entry `(p, q)` is the row's entry of lane `q`. -/
theorem rowBroadcast128 (b : Vec Ideal S1x128 .f32) (p : Fin 10000) (q : Fin 128) :
    broadcastTo S10000x128 (shapeCast S1x128 b Facts₀.shapeCasts_S1x128_S1x128) Facts₀.broadcasts_S1x128_S10000x128 (ix2 p q)
      = b (ix2 (0 : Fin 1) q) := by
  rw [shapeCast_self]
  exact broadcastTo_apply b _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The same for a 64-lane row. -/
theorem rowBroadcast64 (b : Vec Ideal S1x64 .f32) (p : Fin 10000) (q : Fin 64) :
    broadcastTo S10000x64 (shapeCast S1x64 b Facts₀.shapeCasts_S1x64_S1x64) Facts₀.broadcasts_S1x64_S10000x64 (ix2 p q)
      = b (ix2 (0 : Fin 1) q) := by
  rw [shapeCast_self]
  exact broadcastTo_apply b _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-! ## The matrix unit's two contractions -/

theorem dot128_lhs0 (j : S10000x128.Idx) (q : dot_S10000x128_S128x128_S10000x128_1_0_0_1_n_n.contr.Idx) :
    (dot_S10000x128_S128x128_S10000x128_1_0_0_1_n_n.lhsIdx j q 0).val = (j 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem dot128_rhs1 (j : S10000x128.Idx) (q : dot_S10000x128_S128x128_S10000x128_1_0_0_1_n_n.contr.Idx) :
    (dot_S10000x128_S128x128_S10000x128_1_0_0_1_n_n.rhsIdx j q 1).val = (j 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
theorem dot64_lhs0 (j : S10000x64.Idx) (q : dot_S10000x128_S128x64_S10000x64_1_0_0_1_n_n.contr.Idx) :
    (dot_S10000x128_S128x64_S10000x64_1_0_0_1_n_n.lhsIdx j q 0).val = (j 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem dot64_rhs1 (j : S10000x64.Idx) (q : dot_S10000x128_S128x64_S10000x64_1_0_0_1_n_n.contr.Idx) :
    (dot_S10000x128_S128x64_S10000x64_1_0_0_1_n_n.rhsIdx j q 1).val = (j 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The block product with a 128-column weight matrix: entry `(p, q)` is the sum over `k` of left `(p, k)` times right `(k, q)`. -/
theorem matmul128_apply (l : FVec Ideal S10000x128 .bf16) (r : FVec Ideal S128x128 .bf16) (p : Fin 10000) (q : Fin 128) :
    matmul dot_S10000x128_S128x128_S10000x128_1_0_0_1_n_n none l r (constant S10000x128 .f32 0x00000000#32) (ix2 p q)
      = ∑ k : Fin 128, l (ix2 p k) * r (ix2 k q) :=
  (Ideal.matmul_constant_zero_apply dot_S10000x128_S128x128_S10000x128_1_0_0_1_n_n none l r (ix2 p q)).trans
    (sum_contr128 dot_S10000x128_S128x128_S10000x128_1_0_0_1_n_n rfl rfl dot128_lhs0
      (fun j k => dot_S10000x128_S128x128_S10000x128_1_0_0_1_n_n.lhsIdx_val_of_single rfl j k)
      (fun j k => dot_S10000x128_S128x128_S10000x128_1_0_0_1_n_n.rhsIdx_val_of_single rfl j k) dot128_rhs1 l r p q)

/-- The block product with the 64-column weight matrix. -/
theorem matmul64_apply (l : FVec Ideal S10000x128 .bf16) (r : FVec Ideal S128x64 .bf16) (p : Fin 10000) (q : Fin 64) :
    matmul dot_S10000x128_S128x64_S10000x64_1_0_0_1_n_n none l r (constant S10000x64 .f32 0x00000000#32) (ix2 p q)
      = ∑ k : Fin 128, l (ix2 p k) * r (ix2 k q) :=
  (Ideal.matmul_constant_zero_apply dot_S10000x128_S128x64_S10000x64_1_0_0_1_n_n none l r (ix2 p q)).trans
    (sum_contr128 dot_S10000x128_S128x64_S10000x64_1_0_0_1_n_n rfl rfl dot64_lhs0
      (fun j k => dot_S10000x128_S128x64_S10000x64_1_0_0_1_n_n.lhsIdx_val_of_single rfl j k)
      (fun j k => dot_S10000x128_S128x64_S10000x64_1_0_0_1_n_n.rhsIdx_val_of_single rfl j k) dot64_rhs1 l r p q)

/-! ## The six bodies -/

/-- The scaling body (launch 0): entry `(p, q)` is the data entry times row `p`'s norm. -/
theorem scale0_apply (x : Vec Ideal S10000x128 .f32) (n : Vec Ideal S10000x1 .f32) (p : Fin 10000) (q : Fin 128) :
    k0_pay1 x n (ix2 p q) = x (ix2 p q) * n (ix2 p (0 : Fin 1)) := by
  unfold k0_pay1
  rw [mulf_apply, colBroadcast128]

/-- The scaling body (launch 2). -/
theorem scale2_apply (x : Vec Ideal S10000x128 .f32) (n : Vec Ideal S10000x1 .f32) (p : Fin 10000) (q : Fin 128) :
    k2_pay1 x n (ix2 p q) = x (ix2 p q) * n (ix2 p (0 : Fin 1)) := by
  unfold k2_pay1
  rw [mulf_apply, colBroadcast128, shapeCast_self]

/-- Scale, multiply by the weights, add the bias, clamp at zero (launch 1): entry `(p, q)` is
    `max (Σ_k (x (p, k) · n p) · w (k, q) + b q) 0`. -/
theorem dense1_apply (x : Vec Ideal S10000x128 .f32) (n : Vec Ideal S10000x1 .f32) (w : Vec Ideal S128x128 .f32) (b : Vec Ideal S1x128 .f32)
    (p : Fin 10000) (q : Fin 128) :
    k1_pay1 x n w b (ix2 p q)
      = max ((∑ k : Fin 128, (x (ix2 p k) * n (ix2 p (0 : Fin 1))) * w (ix2 k q)) + b (ix2 (0 : Fin 1) q)) (Ideal.ofBits .f32 0x00000000#32) := by
  unfold k1_pay1
  rw [maximumf_apply, addf_apply, rowBroadcast128, matmul128_apply]
  refine congrArg₂ max (congrArg (· + b (ix2 (0 : Fin 1) q)) (Finset.sum_congr rfl fun k _ => ?_)) rfl
  rw [truncf_apply, truncf_apply, mulf_apply, colBroadcast128, shapeCast_self]

/-- The same body at launch 3. -/
theorem dense3_apply (x : Vec Ideal S10000x128 .f32) (n : Vec Ideal S10000x1 .f32) (w : Vec Ideal S128x128 .f32) (b : Vec Ideal S1x128 .f32)
    (p : Fin 10000) (q : Fin 128) :
    k3_pay1 x n w b (ix2 p q)
      = max ((∑ k : Fin 128, (x (ix2 p k) * n (ix2 p (0 : Fin 1))) * w (ix2 k q)) + b (ix2 (0 : Fin 1) q)) (Ideal.ofBits .f32 0x00000000#32) := by
  unfold k3_pay1
  rw [maximumf_apply, addf_apply, rowBroadcast128, matmul128_apply]
  refine congrArg₂ max (congrArg (· + b (ix2 (0 : Fin 1) q)) (Finset.sum_congr rfl fun k _ => ?_)) rfl
  rw [truncf_apply, truncf_apply, mulf_apply, colBroadcast128, shapeCast_self]

/-- Scale and multiply by the 64-column weights (launch 4): entry `(p, q)` is `Σ_k (x (p, k) · n p) · w (k, q)`. -/
theorem dense4_apply (x : Vec Ideal S10000x128 .f32) (n : Vec Ideal S10000x1 .f32) (w : Vec Ideal S128x64 .f32) (p : Fin 10000) (q : Fin 64) :
    k4_pay1 x n w (ix2 p q) = ∑ k : Fin 128, (x (ix2 p k) * n (ix2 p (0 : Fin 1))) * w (ix2 k q) := by
  unfold k4_pay1
  rw [matmul64_apply]
  refine Finset.sum_congr rfl fun k _ => ?_
  rw [truncf_apply, truncf_apply, mulf_apply, colBroadcast128, shapeCast_self]

/-- Scale and add the bias (launch 5): entry `(p, q)` is `x (p, q) · n p + b q`. -/
theorem scaleBias5_apply (x : Vec Ideal S10000x64 .f32) (n : Vec Ideal S10000x1 .f32) (b : Vec Ideal S1x64 .f32) (p : Fin 10000) (q : Fin 64) :
    k5_pay1 x n b (ix2 p q) = x (ix2 p q) * n (ix2 p (0 : Fin 1)) + b (ix2 (0 : Fin 1) q) := by
  unfold k5_pay1
  rw [addf_apply, mulf_apply, colBroadcast64, rowBroadcast64, shapeCast_self]

end Cert.KernelIdeal.Bodies

end
-- ==== Proof.Region0.lean ====
/-
  Launch 0 (scale the node table by the out-degree norm): the output array after the launch, as one function of the arrays the launch finds.

  The grid has ten points; point `t` stages rows `10000 t … 10000 t + 9999` of the data array and of the one-column
  norm array, runs the scaling body on the two blocks and writes the result back to the same rows of the output
  array. A row of the result depends on the same row of the inputs only, so what point `t` writes back is block `t`
  of the whole-array function `Layers.scaleRows` of the two input arrays; the ten blocks cover the output array.
-/
import proofs.«128982_j67327907332268_1_alg».proof.Proof.Gen.KernelIdeal.Frame
import proofs.«128982_j67327907332268_1_alg».proof.Proof.Bodies
import proofs.«128982_j67327907332268_1_alg».proof.Proof.Layers

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the grid: a window that moves with the grid is at block row `t`, block column 0
    at point `t`; a window that does not move (the weights, the bias row) is at block (0, 0) at every point. -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0 ∧ t.val < 10 :=
  (by decide +kernel : ∀ t : Fin grid0.N, _)

/-- Row `p` of point `t`'s moving blocks is row `10000 t + p` of the arrays. -/
def row (t : Fin cfg0.N) (p : Fin 10000) : Fin 100000 := ⟨t.val * 10000 + p.val, by have := (idx_facts t).2.2.2.2.2.2; omega⟩

theorem emb_in0 (t : Fin cfg0.N) (p : Fin 10000) (q : Fin 128) : ((cfg0.win 0).blk t).view.emb (ix2 p q) = ix2 (row t p) q := by
  obtain ⟨e0, e1, e2, e3, e4, e5, e6⟩ := idx_facts t
  funext a; apply Fin.ext
  match a with
  | ⟨0, _⟩ => show win0_0.index t (0 : Fin 2) * 10000 + 1 * p.val = t.val * 10000 + p.val; omega
  | ⟨1, _⟩ => show win0_0.index t (1 : Fin 2) * 128 + 1 * q.val = q.val; omega

theorem emb_in1 (t : Fin cfg0.N) (p : Fin 10000) (z : Fin 1) : ((cfg0.win 1).blk t).view.emb (ix2 p z) = ix2 (row t p) z := by
  obtain ⟨e0, e1, e2, e3, e4, e5, e6⟩ := idx_facts t
  funext a; apply Fin.ext
  match a with
  | ⟨0, _⟩ => show win0_1.index t (0 : Fin 2) * 10000 + 1 * p.val = t.val * 10000 + p.val; omega
  | ⟨1, _⟩ => show win0_1.index t (1 : Fin 2) * 1 + 1 * z.val = z.val; omega

theorem emb_out (t : Fin cfg0.N) (p : Fin 10000) (q : Fin 128) : ((cfg0.win 2).blk t).view.emb (ix2 p q) = ix2 (row t p) q := by
  obtain ⟨e0, e1, e2, e3, e4, e5, e6⟩ := idx_facts t
  funext a; apply Fin.ext
  match a with
  | ⟨0, _⟩ => show win0_2.index t (0 : Fin 2) * 10000 + 1 * p.val = t.val * 10000 + p.val; omega
  | ⟨1, _⟩ => show win0_2.index t (1 : Fin 2) * 128 + 1 * q.val = q.val; omega

/-- What point `t` writes back is block `t` of the layer step applied to the whole input arrays. -/
theorem flushed_eq (c : Dev nD) (t : Fin cfg0.N) :
    (dat0 V c).flushed 2 t = ((cfg0.win 2).blk t).view.read (Elt Ideal) (Layers.scaleRows (V c main_arg0) (V c main_v10)) := by
  show (cfg0.win 2).cut (grid0.coords t) ((dat0 V c).after 2 t) = _
  rw [after0_2]
  unfold out0_2
  rw [View.canon_unit_zero hz]
  simp only [View.ld_unit_zero (S := S10000x128) hz, View.ld_unit_zero (S := S10000x1) hz]
  funext j
  obtain ⟨p, q, rfl⟩ : ∃ (p : Fin 10000) (q : Fin 128), j = ix2 p q := ⟨j 0, j 1, eq_ix2 j⟩
  show k0_pay1 (iblk0 V c 0 t) (iblk0 V c 1 t) (ix2 p q) = Layers.scaleRows (V c main_arg0) (V c main_v10) (((cfg0.win 2).blk t).view.emb (ix2 p q))
  refine (Bodies.scale0_apply (iblk0 V c 0 t) (iblk0 V c 1 t) p q).trans ?_
  rw [emb_out, Layers.scaleRows_apply]
  have h0 : iblk0 V c 0 t (ix2 p q) = V c main_arg0 (ix2 (row t p) q) := by
    show V c main_arg0 (((cfg0.win 0).blk t).view.emb (ix2 p q)) = _
    rw [emb_in0]
  have h1 : iblk0 V c 1 t (ix2 p (0 : Fin 1)) = V c main_v10 (ix2 (row t p) (0 : Fin 1)) := by
    show V c main_v10 (((cfg0.win 1).blk t).view.emb (ix2 p (0 : Fin 1))) = _
    rw [emb_in1]
  simp only [h0, h1]

/-- An index of the output array is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v15).slice (win0_2.rect t)).set ↔ _
  rw [View.set_slice_whole, Rect.mem_set_unit]
  exact Iff.rfl

/-- Every row of the output array is in the block of the point its number divided by 10000 names. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  let t : Fin cfg0.N := ⟨(i 0).val / 10000, by show (i 0).val / 10000 < grid0.N; omega⟩
  have ht : t.val = (i 0).val / 10000 := rfl
  obtain ⟨e0, e1, e2, e3, e4, e5, e6⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- The output array after the launch is the layer step of the arrays the launch finds. -/
theorem value (c : Dev nD) : (dat0 V c).arrAt 2 cfg0.N = Layers.scaleRows (V c main_arg0) (V c main_v10) :=
  (dat0 V c).arrAt_eq_of_cover 2 _ (fun t _ => flushed_eq V c t) cover

end Cert.KernelIdeal.Region0

end
-- ==== Proof.Region1.lean ====
/-
  Launch 1 (first layer's dense step: scale by the in-degree norm, weights, bias, clamp at zero): the output array after the launch.

  The grid has ten points; point `t` stages rows `10000 t … 10000 t + 9999` of the aggregated table and of the
  one-column norm array, and the whole weight matrix and bias row (the same block at every point). Entry `(p, q)` of
  the body's result is a sum over row `p` of the staged data block against column `q` of the weights, plus bias
  entry `q`, clamped at zero: it depends on row `10000 t + p` of the arrays only. So what point `t` writes back is
  block `t` of the whole-array function `Layers.denseRelu`, and the ten blocks cover the output array.
-/
import proofs.«128982_j67327907332268_1_alg».proof.Proof.Gen.KernelIdeal.Frame
import proofs.«128982_j67327907332268_1_alg».proof.Proof.Bodies
import proofs.«128982_j67327907332268_1_alg».proof.Proof.Layers

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the grid: a window that moves with the grid is at block row `t`, block column 0
    at point `t`; a window that does not move (the weights, the bias row) is at block (0, 0) at every point. -/
theorem idx_facts : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 ∧ t.val < 10 :=
  (by decide +kernel : ∀ t : Fin grid1.N, _)

/-- Row `p` of point `t`'s moving blocks is row `10000 t + p` of the arrays. -/
def row (t : Fin cfg1.N) (p : Fin 10000) : Fin 100000 := ⟨t.val * 10000 + p.val, by have := (idx_facts t).2.2.2.2.2.2.2.2.2.2; omega⟩

theorem emb_in0 (t : Fin cfg1.N) (p : Fin 10000) (q : Fin 128) : ((cfg1.win 0).blk t).view.emb (ix2 p q) = ix2 (row t p) q := by
  obtain ⟨e0, e1, e2, e3, e4, e5, e6, e7, e8, e9, e10⟩ := idx_facts t
  funext a; apply Fin.ext
  match a with
  | ⟨0, _⟩ => show win1_0.index t (0 : Fin 2) * 10000 + 1 * p.val = t.val * 10000 + p.val; omega
  | ⟨1, _⟩ => show win1_0.index t (1 : Fin 2) * 128 + 1 * q.val = q.val; omega

theorem emb_in1 (t : Fin cfg1.N) (p : Fin 10000) (z : Fin 1) : ((cfg1.win 1).blk t).view.emb (ix2 p z) = ix2 (row t p) z := by
  obtain ⟨e0, e1, e2, e3, e4, e5, e6, e7, e8, e9, e10⟩ := idx_facts t
  funext a; apply Fin.ext
  match a with
  | ⟨0, _⟩ => show win1_1.index t (0 : Fin 2) * 10000 + 1 * p.val = t.val * 10000 + p.val; omega
  | ⟨1, _⟩ => show win1_1.index t (1 : Fin 2) * 1 + 1 * z.val = z.val; omega

theorem emb_in2 (t : Fin cfg1.N) (a0 : Fin 128) (a1 : Fin 128) : ((cfg1.win 2).blk t).view.emb (ix2 a0 a1) = ix2 a0 a1 := by
  obtain ⟨e0, e1, e2, e3, e4, e5, e6, e7, e8, e9, e10⟩ := idx_facts t
  funext a; apply Fin.ext
  match a with
  | ⟨0, _⟩ => show win1_2.index t (0 : Fin 2) * 128 + 1 * a0.val = a0.val; omega
  | ⟨1, _⟩ => show win1_2.index t (1 : Fin 2) * 128 + 1 * a1.val = a1.val; omega

theorem emb_in3 (t : Fin cfg1.N) (a0 : Fin 1) (a1 : Fin 128) : ((cfg1.win 3).blk t).view.emb (ix2 a0 a1) = ix2 a0 a1 := by
  obtain ⟨e0, e1, e2, e3, e4, e5, e6, e7, e8, e9, e10⟩ := idx_facts t
  funext a; apply Fin.ext
  match a with
  | ⟨0, _⟩ => show win1_3.index t (0 : Fin 2) * 1 + 1 * a0.val = a0.val; omega
  | ⟨1, _⟩ => show win1_3.index t (1 : Fin 2) * 128 + 1 * a1.val = a1.val; omega

theorem emb_out (t : Fin cfg1.N) (p : Fin 10000) (q : Fin 128) : ((cfg1.win 4).blk t).view.emb (ix2 p q) = ix2 (row t p) q := by
  obtain ⟨e0, e1, e2, e3, e4, e5, e6, e7, e8, e9, e10⟩ := idx_facts t
  funext a; apply Fin.ext
  match a with
  | ⟨0, _⟩ => show win1_4.index t (0 : Fin 2) * 10000 + 1 * p.val = t.val * 10000 + p.val; omega
  | ⟨1, _⟩ => show win1_4.index t (1 : Fin 2) * 128 + 1 * q.val = q.val; omega

/-- What point `t` writes back is block `t` of the layer step applied to the whole input arrays. -/
theorem flushed_eq (c : Dev nD) (t : Fin cfg1.N) :
    (dat1 V c).flushed 4 t = ((cfg1.win 4).blk t).view.read (Elt Ideal) (Layers.denseRelu (V c main_v28) (V c main_v14) (V c main_arg4) (V c main_v29)) := by
  show (cfg1.win 4).cut (grid1.coords t) ((dat1 V c).after 4 t) = _
  rw [after1_4]
  unfold out1_4
  rw [View.canon_unit_zero hz]
  simp only [View.ld_unit_zero (S := S10000x128) hz, View.ld_unit_zero (S := S10000x1) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  show k1_pay1 (iblk1 V c 0 t) (iblk1 V c 1 t) (iblk1 V c 2 t) (iblk1 V c 3 t) (ix2 p q) = Layers.denseRelu (V c main_v28) (V c main_v14) (V c main_arg4) (V c main_v29) (((cfg1.win 4).blk t).view.emb (ix2 p q))
  refine (Bodies.dense1_apply (iblk1 V c 0 t) (iblk1 V c 1 t) (iblk1 V c 2 t) (iblk1 V c 3 t) p q).trans ?_
  rw [emb_out, Layers.denseRelu_apply]
  have h0 : ∀ k : Fin 128, iblk1 V c 0 t (ix2 p k) = V c main_v28 (ix2 (row t p) k) := fun k => by
    show V c main_v28 (((cfg1.win 0).blk t).view.emb (ix2 p k)) = _
    rw [emb_in0]
  have h1 : iblk1 V c 1 t (ix2 p (0 : Fin 1)) = V c main_v14 (ix2 (row t p) (0 : Fin 1)) := by
    show V c main_v14 (((cfg1.win 1).blk t).view.emb (ix2 p (0 : Fin 1))) = _
    rw [emb_in1]
  have h2 : ∀ k : Fin 128, iblk1 V c 2 t (ix2 k q) = V c main_arg4 (ix2 k q) := fun k => by
    show V c main_arg4 (((cfg1.win 2).blk t).view.emb (ix2 k q)) = _
    rw [emb_in2]
  have h3 : iblk1 V c 3 t (ix2 (0 : Fin 1) q) = V c main_v29 (ix2 (0 : Fin 1) q) := by
    show V c main_v29 (((cfg1.win 3).blk t).view.emb (ix2 (0 : Fin 1) q)) = _
    rw [emb_in3]
  simp only [h0, h1, h2, h3]

/-- An index of the output array is in point `t`'s block iff each coordinate is in the block's range on its axis. -/
theorem mem_blk (t : Fin cfg1.N) (i : S100000x128.Idx) :
    i ∈ ((cfg1.win 4).blk t).view.set ↔ ∀ a : Fin 2, win1_4.index t a * S10000x128.size a ≤ (i a).val ∧ (i a).val < win1_4.index t a * S10000x128.size a + S10000x128.size a := by
  show i ∈ ((View.whole main_v30).slice (win1_4.rect t)).set ↔ _
  rw [View.set_slice_whole, Rect.mem_set_unit]
  exact Iff.rfl

/-- Every row of the output array is in the block of the point its number divided by 10000 names. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 10 := N_1
  let t : Fin cfg1.N := ⟨(i 0).val / 10000, by show (i 0).val / 10000 < grid1.N; omega⟩
  have ht : t.val = (i 0).val / 10000 := rfl
  obtain ⟨e0, e1, e2, e3, e4, e5, e6, e7, e8, e9, e10⟩ := idx_facts t
  refine ⟨t, flush1_4 t, ?_⟩
  rw [mem_blk]
  intro a
  match a with
  | ⟨0, _⟩ => show win1_4.index t (0 : Fin 2) * 10000 ≤ (i 0).val ∧ (i 0).val < win1_4.index t (0 : Fin 2) * 10000 + 10000; omega
  | ⟨1, _⟩ => show win1_4.index t (1 : Fin 2) * 128 ≤ (i 1).val ∧ (i 1).val < win1_4.index t (1 : Fin 2) * 128 + 128; omega

/-- The output array after the launch is the layer step of the arrays the launch finds. -/
theorem value (c : Dev nD) : (dat1 V c).arrAt 4 cfg1.N = Layers.denseRelu (V c main_v28) (V c main_v14) (V c main_arg4) (V c main_v29) :=
  (dat1 V c).arrAt_eq_of_cover 4 _ (fun t _ => flushed_eq V c t) cover

end Cert.KernelIdeal.Region1

end
-- ==== Proof.Region2.lean ====
/-
  Launch 2 (scale the first layer's output by the out-degree norm): the output array after the launch.

  The grid has ten points; point `t` stages rows `10000 t … 10000 t + 9999` of the data array and of the one-column
  norm array, runs the scaling body on the two blocks and writes the result back to the same rows of the output
  array. A row of the result depends on the same row of the inputs only, so what point `t` writes back is block `t`
  of the whole-array function `Layers.scaleRows` of the two input arrays; the ten blocks cover the output array.
-/
import proofs.«128982_j67327907332268_1_alg».proof.Proof.Gen.KernelIdeal.Frame
import proofs.«128982_j67327907332268_1_alg».proof.Proof.Bodies
import proofs.«128982_j67327907332268_1_alg».proof.Proof.Layers

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the grid: a window that moves with the grid is at block row `t`, block column 0
    at point `t`; a window that does not move (the weights, the bias row) is at block (0, 0) at every point. -/
theorem idx_facts : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0 ∧ t.val < 10 :=
  (by decide +kernel : ∀ t : Fin grid2.N, _)

/-- Row `p` of point `t`'s moving blocks is row `10000 t + p` of the arrays. -/
def row (t : Fin cfg2.N) (p : Fin 10000) : Fin 100000 := ⟨t.val * 10000 + p.val, by have := (idx_facts t).2.2.2.2.2.2; omega⟩

theorem emb_in0 (t : Fin cfg2.N) (p : Fin 10000) (q : Fin 128) : ((cfg2.win 0).blk t).view.emb (ix2 p q) = ix2 (row t p) q := by
  obtain ⟨e0, e1, e2, e3, e4, e5, e6⟩ := idx_facts t
  funext a; apply Fin.ext
  match a with
  | ⟨0, _⟩ => show win2_0.index t (0 : Fin 2) * 10000 + 1 * p.val = t.val * 10000 + p.val; omega
  | ⟨1, _⟩ => show win2_0.index t (1 : Fin 2) * 128 + 1 * q.val = q.val; omega

theorem emb_in1 (t : Fin cfg2.N) (p : Fin 10000) (z : Fin 1) : ((cfg2.win 1).blk t).view.emb (ix2 p z) = ix2 (row t p) z := by
  obtain ⟨e0, e1, e2, e3, e4, e5, e6⟩ := idx_facts t
  funext a; apply Fin.ext
  match a with
  | ⟨0, _⟩ => show win2_1.index t (0 : Fin 2) * 10000 + 1 * p.val = t.val * 10000 + p.val; omega
  | ⟨1, _⟩ => show win2_1.index t (1 : Fin 2) * 1 + 1 * z.val = z.val; omega

theorem emb_out (t : Fin cfg2.N) (p : Fin 10000) (q : Fin 128) : ((cfg2.win 2).blk t).view.emb (ix2 p q) = ix2 (row t p) q := by
  obtain ⟨e0, e1, e2, e3, e4, e5, e6⟩ := idx_facts t
  funext a; apply Fin.ext
  match a with
  | ⟨0, _⟩ => show win2_2.index t (0 : Fin 2) * 10000 + 1 * p.val = t.val * 10000 + p.val; omega
  | ⟨1, _⟩ => show win2_2.index t (1 : Fin 2) * 128 + 1 * q.val = q.val; omega

/-- What point `t` writes back is block `t` of the layer step applied to the whole input arrays. -/
theorem flushed_eq (c : Dev nD) (t : Fin cfg2.N) :
    (dat2 V c).flushed 2 t = ((cfg2.win 2).blk t).view.read (Elt Ideal) (Layers.scaleRows (V c main_v30) (V c main_v10)) := by
  show (cfg2.win 2).cut (grid2.coords t) ((dat2 V c).after 2 t) = _
  rw [after2_2]
  unfold out2_2
  rw [View.canon_unit_zero hz]
  simp only [View.ld_unit_zero (S := S10000x128) hz, View.ld_unit_zero (S := S10000x1) hz]
  funext j
  obtain ⟨p, q, rfl⟩ : ∃ (p : Fin 10000) (q : Fin 128), j = ix2 p q := ⟨j 0, j 1, eq_ix2 j⟩
  show k2_pay1 (iblk2 V c 0 t) (iblk2 V c 1 t) (ix2 p q) = Layers.scaleRows (V c main_v30) (V c main_v10) (((cfg2.win 2).blk t).view.emb (ix2 p q))
  refine (Bodies.scale2_apply (iblk2 V c 0 t) (iblk2 V c 1 t) p q).trans ?_
  rw [emb_out, Layers.scaleRows_apply]
  have h0 : iblk2 V c 0 t (ix2 p q) = V c main_v30 (ix2 (row t p) q) := by
    show V c main_v30 (((cfg2.win 0).blk t).view.emb (ix2 p q)) = _
    rw [emb_in0]
  have h1 : iblk2 V c 1 t (ix2 p (0 : Fin 1)) = V c main_v10 (ix2 (row t p) (0 : Fin 1)) := by
    show V c main_v10 (((cfg2.win 1).blk t).view.emb (ix2 p (0 : Fin 1))) = _
    rw [emb_in1]
  simp only [h0, h1]

/-- An index of the output array is in point `t`'s block iff each coordinate is in the block's range on its axis. -/
theorem mem_blk (t : Fin cfg2.N) (i : S100000x128.Idx) :
    i ∈ ((cfg2.win 2).blk t).view.set ↔ ∀ a : Fin 2, win2_2.index t a * S10000x128.size a ≤ (i a).val ∧ (i a).val < win2_2.index t a * S10000x128.size a + S10000x128.size a := by
  show i ∈ ((View.whole main_v31).slice (win2_2.rect t)).set ↔ _
  rw [View.set_slice_whole, Rect.mem_set_unit]
  exact Iff.rfl

/-- Every row of the output array is in the block of the point its number divided by 10000 names. -/
theorem cover (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : grid2.N = 10 := N_2
  let t : Fin cfg2.N := ⟨(i 0).val / 10000, by show (i 0).val / 10000 < grid2.N; omega⟩
  have ht : t.val = (i 0).val / 10000 := rfl
  obtain ⟨e0, e1, e2, e3, e4, e5, e6⟩ := idx_facts t
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 128 ≤ (i 1).val ∧ (i 1).val < win2_2.index t (1 : Fin 2) * 128 + 128; omega

/-- The output array after the launch is the layer step of the arrays the launch finds. -/
theorem value (c : Dev nD) : (dat2 V c).arrAt 2 cfg2.N = Layers.scaleRows (V c main_v30) (V c main_v10) :=
  (dat2 V c).arrAt_eq_of_cover 2 _ (fun t _ => flushed_eq V c t) cover

end Cert.KernelIdeal.Region2

end
-- ==== Proof.Flow1.lean ====
/-
  The buffer contents of the idealized kernel's run, boundary by boundary: the first layer.

  `Gen.W5 … Gen.W9` are the contents of the unscoped buffers at the segment boundaries of @main: after the host
  operations that compute the two degree norms (5), after the first scaling launch (6), after the first edge
  aggregation on the host (7), after the first dense launch (8) and after the second scaling launch (9). At each
  boundary the buffers the rest of the run reads are named as functions of the launch memory `m`: an argument is
  never written, so it holds its launch contents throughout; a launch's output array holds the launch's whole-array
  function of its inputs (the per-launch modules); a host result holds its operations' value (the per-stretch module).
-/
import proofs.«128982_j67327907332268_1_alg».proof.Proof.Gen.KernelIdeal.Frame
import proofs.«128982_j67327907332268_1_alg».proof.Proof.Edges
import proofs.«128982_j67327907332268_1_alg».proof.Proof.Stages
import proofs.«128982_j67327907332268_1_alg».proof.Proof.Region0
import proofs.«128982_j67327907332268_1_alg».proof.Proof.Region1
import proofs.«128982_j67327907332268_1_alg».proof.Proof.Region2

set_option maxRecDepth 16384

noncomputable section

namespace Cert.KernelIdeal.Flow

open Cert.KernelIdeal Cert.KernelIdeal.Gen Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ### Boundary 5 (the first launch's entry): the arguments as launched, the two degree norms as one-column arrays -/

theorem at5_arg0 : W5 m ρ c (Proc.devRef .tc main_arg0) = (m ((c : Thread nD τ).loc main_arg0)) := by
  show StableHlo.after hostOps0_4 (StableHlo.after hostOps0_3 (StableHlo.after hostOps0_2 (StableHlo.after hostOps0_1 (StableHlo.after hostOps0 (W0 m ρ c))))) (Proc.devRef .tc main_arg0) = _
  after_results_simp <;> rfl
theorem at5_arg1 : W5 m ρ c (Proc.devRef .tc main_arg1) = (m ((c : Thread nD τ).loc main_arg1)) := by
  show StableHlo.after hostOps0_4 (StableHlo.after hostOps0_3 (StableHlo.after hostOps0_2 (StableHlo.after hostOps0_1 (StableHlo.after hostOps0 (W0 m ρ c))))) (Proc.devRef .tc main_arg1) = _
  after_results_simp <;> rfl
theorem at5_arg2 : W5 m ρ c (Proc.devRef .tc main_arg2) = (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_arg2) = _
  after_results_simp <;> rfl
theorem at5_arg3 : W5 m ρ c (Proc.devRef .tc main_arg3) = (m ((c : Thread nD τ).loc main_arg3)) := by
  show StableHlo.after hostOps0_4 (StableHlo.after hostOps0_3 (StableHlo.after hostOps0_2 (StableHlo.after hostOps0_1 (StableHlo.after hostOps0 (W0 m ρ c))))) (Proc.devRef .tc main_arg3) = _
  after_results_simp <;> rfl
theorem at5_arg4 : W5 m ρ c (Proc.devRef .tc main_arg4) = (m ((c : Thread nD τ).loc main_arg4)) := by
  show StableHlo.after hostOps0_4 (StableHlo.after hostOps0_3 (StableHlo.after hostOps0_2 (StableHlo.after hostOps0_1 (StableHlo.after hostOps0 (W0 m ρ c))))) (Proc.devRef .tc main_arg4) = _
  after_results_simp <;> rfl
theorem at5_arg5 : W5 m ρ c (Proc.devRef .tc main_arg5) = (m ((c : Thread nD τ).loc main_arg5)) := by
  show StableHlo.after hostOps0_4 (StableHlo.after hostOps0_3 (StableHlo.after hostOps0_2 (StableHlo.after hostOps0_1 (StableHlo.after hostOps0 (W0 m ρ c))))) (Proc.devRef .tc main_arg5) = _
  after_results_simp <;> rfl
theorem at5_arg6 : W5 m ρ c (Proc.devRef .tc main_arg6) = (m ((c : Thread nD τ).loc main_arg6)) := by
  show StableHlo.after hostOps0_4 (StableHlo.after hostOps0_3 (StableHlo.after hostOps0_2 (StableHlo.after hostOps0_1 (StableHlo.after hostOps0 (W0 m ρ c))))) (Proc.devRef .tc main_arg6) = _
  after_results_simp <;> rfl
theorem at5_arg7 : W5 m ρ c (Proc.devRef .tc main_arg7) = (m ((c : Thread nD τ).loc main_arg7)) := by
  show StableHlo.after hostOps0_4 (StableHlo.after hostOps0_3 (StableHlo.after hostOps0_2 (StableHlo.after hostOps0_1 (StableHlo.after hostOps0 (W0 m ρ c))))) (Proc.devRef .tc main_arg7) = _
  after_results_simp <;> rfl
theorem at5_arg8 : W5 m ρ c (Proc.devRef .tc main_arg8) = (m ((c : Thread nD τ).loc main_arg8)) := by
  show StableHlo.after hostOps0_4 (StableHlo.after hostOps0_3 (StableHlo.after hostOps0_2 (StableHlo.after hostOps0_1 (StableHlo.after hostOps0 (W0 m ρ c))))) (Proc.devRef .tc main_arg8) = _
  after_results_simp <;> rfl
theorem at5_arg9 : W5 m ρ c (Proc.devRef .tc main_arg9) = (m ((c : Thread nD τ).loc main_arg9)) := by
  show StableHlo.after hostOps0_4 (StableHlo.after hostOps0_3 (StableHlo.after hostOps0_2 (StableHlo.after hostOps0_1 (StableHlo.after hostOps0 (W0 m ρ c))))) (Proc.devRef .tc main_arg9) = _
  after_results_simp <;> rfl

/-- The out-degree norm as a one-column array: the edge counts by source, clamped at one, to the power −1/2, reshaped. -/
theorem at5_v10 : W5 m ρ c (Proc.devRef .tc main_v10) = Layers.normCol (m ((c : Thread nD τ).loc main_arg1)) := by
  refine Eq.trans ?_ (Layers.column_eq (Layers.degNorm (m ((c : Thread nD τ).loc main_arg1))) Facts₀.shapeCasts_S100000_S100000x1)
  have e4 : W5 m ρ c (Proc.devRef .tc main_v10) = W4 m ρ c (Proc.devRef .tc main_v10) := Stages.norm_in_keep (W4 m ρ c)
  have e3 : W4 m ρ c (Proc.devRef .tc main_v10) = W3 m ρ c (Proc.devRef .tc main_v10) := Stages.clamp_in_keep (W3 m ρ c)
  have e2 : W3 m ρ c (Proc.devRef .tc main_v10) = _ := Stages.norm_out (W2 m ρ c)
  have e1 : W2 m ρ c (Proc.devRef .tc main_v7) = _ := Stages.clamp_out (W1 m ρ c)
  have e0 : W1 m ρ c (Proc.devRef .tc main_cst_2) = _ := Stages.one_out (W0 m ρ c)
  have e0' : W1 m ρ c (Proc.devRef .tc main_v3) = _ := Stages.count_out (W0 m ρ c)
  rw [e4, e3, e2, e1, e0, e0']
  rfl

/-- The in-degree norm as a one-column array: the same by destination. -/
theorem at5_v14 : W5 m ρ c (Proc.devRef .tc main_v14) = Layers.normCol (m ((c : Thread nD τ).loc main_arg2)) := by
  refine Eq.trans ?_ (Layers.column_eq (Layers.degNorm (m ((c : Thread nD τ).loc main_arg2))) Facts₀.shapeCasts_S100000_S100000x1)
  have e4 : W5 m ρ c (Proc.devRef .tc main_v14) = _ := Stages.norm_in (W4 m ρ c)
  have e3 : W4 m ρ c (Proc.devRef .tc main_v11) = _ := Stages.clamp_in (W3 m ρ c)
  have e2 : W3 m ρ c (Proc.devRef .tc main_cst_4) = _ := Stages.one_in (W2 m ρ c)
  have e2' : W3 m ρ c (Proc.devRef .tc main_v6) = W2 m ρ c (Proc.devRef .tc main_v6) := Stages.norm_out_keep (W2 m ρ c)
  have e1 : W2 m ρ c (Proc.devRef .tc main_v6) = W1 m ρ c (Proc.devRef .tc main_v6) := Stages.clamp_out_keep (W1 m ρ c)
  have e0 : W1 m ρ c (Proc.devRef .tc main_v6) = _ := Stages.count_in (W0 m ρ c)
  rw [e4, e3, e2, e2', e1, e0]
  rfl

/-! ### Boundary 6: what is carried over -/

theorem at6_arg1 : W6 m ρ c (Proc.devRef .tc main_arg1) = (m ((c : Thread nD τ).loc main_arg1)) :=
  (W6_of_ne m ρ c main_arg1 (by decide)).trans (at5_arg1 m ρ c)
theorem at6_arg2 : W6 m ρ c (Proc.devRef .tc main_arg2) = (m ((c : Thread nD τ).loc main_arg2)) :=
  (W6_of_ne m ρ c main_arg2 (by decide)).trans (at5_arg2 m ρ c)
theorem at6_arg3 : W6 m ρ c (Proc.devRef .tc main_arg3) = (m ((c : Thread nD τ).loc main_arg3)) :=
  (W6_of_ne m ρ c main_arg3 (by decide)).trans (at5_arg3 m ρ c)
theorem at6_arg4 : W6 m ρ c (Proc.devRef .tc main_arg4) = (m ((c : Thread nD τ).loc main_arg4)) :=
  (W6_of_ne m ρ c main_arg4 (by decide)).trans (at5_arg4 m ρ c)
theorem at6_arg5 : W6 m ρ c (Proc.devRef .tc main_arg5) = (m ((c : Thread nD τ).loc main_arg5)) :=
  (W6_of_ne m ρ c main_arg5 (by decide)).trans (at5_arg5 m ρ c)
theorem at6_arg6 : W6 m ρ c (Proc.devRef .tc main_arg6) = (m ((c : Thread nD τ).loc main_arg6)) :=
  (W6_of_ne m ρ c main_arg6 (by decide)).trans (at5_arg6 m ρ c)
theorem at6_arg7 : W6 m ρ c (Proc.devRef .tc main_arg7) = (m ((c : Thread nD τ).loc main_arg7)) :=
  (W6_of_ne m ρ c main_arg7 (by decide)).trans (at5_arg7 m ρ c)
theorem at6_arg8 : W6 m ρ c (Proc.devRef .tc main_arg8) = (m ((c : Thread nD τ).loc main_arg8)) :=
  (W6_of_ne m ρ c main_arg8 (by decide)).trans (at5_arg8 m ρ c)
theorem at6_arg9 : W6 m ρ c (Proc.devRef .tc main_arg9) = (m ((c : Thread nD τ).loc main_arg9)) :=
  (W6_of_ne m ρ c main_arg9 (by decide)).trans (at5_arg9 m ρ c)
theorem at6_v10 : W6 m ρ c (Proc.devRef .tc main_v10) = (Layers.normCol (m ((c : Thread nD τ).loc main_arg1))) :=
  ((W6_arr m ρ c 1).trans (((dat0 (V5 m ρ) c).arrAt_in 1 rfl _).trans (A_eq0 (V5 m ρ) c 1))).trans (at5_v10 m ρ c)
theorem at6_v14 : W6 m ρ c (Proc.devRef .tc main_v14) = (Layers.normCol (m ((c : Thread nD τ).loc main_arg2))) :=
  (W6_of_ne m ρ c main_v14 (by decide)).trans (at5_v14 m ρ c)

/-- After the first scaling launch its output array is the node table scaled by the out-degree norm. -/
theorem at6_v15 : W6 m ρ c (Proc.devRef .tc main_v15) = (Layers.scaleRows (m ((c : Thread nD τ).loc main_arg0)) (Layers.normCol (m ((c : Thread nD τ).loc main_arg1)))) :=
  (W6_arr m ρ c 2).trans ((Region0.value (V5 m ρ) c).trans (congrArg₂ Layers.scaleRows (at5_arg0 m ρ c) (at5_v10 m ρ c)))

/-! ### Boundary 7: what is carried over -/

theorem at7_arg1 : W7 m ρ c (Proc.devRef .tc main_arg1) = (m ((c : Thread nD τ).loc main_arg1)) := by
  refine Eq.trans ?_ (at6_arg1 m ρ c)
  show StableHlo.after hostOps1 (W6 m ρ c) (Proc.devRef .tc main_arg1) = _
  after_results
theorem at7_arg2 : W7 m ρ c (Proc.devRef .tc main_arg2) = (m ((c : Thread nD τ).loc main_arg2)) := by
  refine Eq.trans ?_ (at6_arg2 m ρ c)
  show StableHlo.after hostOps1 (W6 m ρ c) (Proc.devRef .tc main_arg2) = _
  after_results
theorem at7_arg3 : W7 m ρ c (Proc.devRef .tc main_arg3) = (m ((c : Thread nD τ).loc main_arg3)) := by
  refine Eq.trans ?_ (at6_arg3 m ρ c)
  show StableHlo.after hostOps1 (W6 m ρ c) (Proc.devRef .tc main_arg3) = _
  after_results
theorem at7_arg4 : W7 m ρ c (Proc.devRef .tc main_arg4) = (m ((c : Thread nD τ).loc main_arg4)) := by
  refine Eq.trans ?_ (at6_arg4 m ρ c)
  show StableHlo.after hostOps1 (W6 m ρ c) (Proc.devRef .tc main_arg4) = _
  after_results
theorem at7_arg6 : W7 m ρ c (Proc.devRef .tc main_arg6) = (m ((c : Thread nD τ).loc main_arg6)) := by
  refine Eq.trans ?_ (at6_arg6 m ρ c)
  show StableHlo.after hostOps1 (W6 m ρ c) (Proc.devRef .tc main_arg6) = _
  after_results
theorem at7_arg7 : W7 m ρ c (Proc.devRef .tc main_arg7) = (m ((c : Thread nD τ).loc main_arg7)) := by
  refine Eq.trans ?_ (at6_arg7 m ρ c)
  show StableHlo.after hostOps1 (W6 m ρ c) (Proc.devRef .tc main_arg7) = _
  after_results
theorem at7_arg8 : W7 m ρ c (Proc.devRef .tc main_arg8) = (m ((c : Thread nD τ).loc main_arg8)) := by
  refine Eq.trans ?_ (at6_arg8 m ρ c)
  show StableHlo.after hostOps1 (W6 m ρ c) (Proc.devRef .tc main_arg8) = _
  after_results
theorem at7_arg9 : W7 m ρ c (Proc.devRef .tc main_arg9) = (m ((c : Thread nD τ).loc main_arg9)) := by
  refine Eq.trans ?_ (at6_arg9 m ρ c)
  show StableHlo.after hostOps1 (W6 m ρ c) (Proc.devRef .tc main_arg9) = _
  after_results
theorem at7_v10 : W7 m ρ c (Proc.devRef .tc main_v10) = (Layers.normCol (m ((c : Thread nD τ).loc main_arg1))) := by
  refine Eq.trans ?_ (at6_v10 m ρ c)
  show StableHlo.after hostOps1 (W6 m ρ c) (Proc.devRef .tc main_v10) = _
  after_results
theorem at7_v14 : W7 m ρ c (Proc.devRef .tc main_v14) = (Layers.normCol (m ((c : Thread nD τ).loc main_arg2))) := by
  refine Eq.trans ?_ (at6_v14 m ρ c)
  show StableHlo.after hostOps1 (W6 m ρ c) (Proc.devRef .tc main_v14) = _
  after_results

/-- After the first stretch of edge operations: the aggregated messages, and the first bias as a one-row array. -/
theorem at7_v28 : W7 m ρ c (Proc.devRef .tc main_v28) = (Layers.edgeAgg128 (Layers.scaleRows (m ((c : Thread nD τ).loc main_arg0)) (Layers.normCol (m ((c : Thread nD τ).loc main_arg1)))) (m ((c : Thread nD τ).loc main_arg1)) (m ((c : Thread nD τ).loc main_arg2)) (m ((c : Thread nD τ).loc main_arg3))) := by
  refine (Stages.edges1 (W6 m ρ c)).trans ?_
  rw [at6_v15 m ρ c, at6_arg1 m ρ c, at6_arg2 m ρ c, at6_arg3 m ρ c]
theorem at7_v29 : W7 m ρ c (Proc.devRef .tc main_v29) = Layers.biasRow128 (m ((c : Thread nD τ).loc main_arg5)) := by
  refine Eq.trans ?_ (Layers.row128_eq (m ((c : Thread nD τ).loc main_arg5)) Facts₀.shapeCasts_S128_S1x128)
  refine (Stages.bias1 (W6 m ρ c)).trans ?_
  rw [at6_arg5 m ρ c]

/-! ### Boundary 8: what is carried over -/

theorem at8_arg1 : W8 m ρ c (Proc.devRef .tc main_arg1) = (m ((c : Thread nD τ).loc main_arg1)) :=
  (W8_of_ne m ρ c main_arg1 (by decide)).trans (at7_arg1 m ρ c)
theorem at8_arg2 : W8 m ρ c (Proc.devRef .tc main_arg2) = (m ((c : Thread nD τ).loc main_arg2)) :=
  (W8_of_ne m ρ c main_arg2 (by decide)).trans (at7_arg2 m ρ c)
theorem at8_arg3 : W8 m ρ c (Proc.devRef .tc main_arg3) = (m ((c : Thread nD τ).loc main_arg3)) :=
  (W8_of_ne m ρ c main_arg3 (by decide)).trans (at7_arg3 m ρ c)
theorem at8_arg6 : W8 m ρ c (Proc.devRef .tc main_arg6) = (m ((c : Thread nD τ).loc main_arg6)) :=
  (W8_of_ne m ρ c main_arg6 (by decide)).trans (at7_arg6 m ρ c)
theorem at8_arg7 : W8 m ρ c (Proc.devRef .tc main_arg7) = (m ((c : Thread nD τ).loc main_arg7)) :=
  (W8_of_ne m ρ c main_arg7 (by decide)).trans (at7_arg7 m ρ c)
theorem at8_arg8 : W8 m ρ c (Proc.devRef .tc main_arg8) = (m ((c : Thread nD τ).loc main_arg8)) :=
  (W8_of_ne m ρ c main_arg8 (by decide)).trans (at7_arg8 m ρ c)
theorem at8_arg9 : W8 m ρ c (Proc.devRef .tc main_arg9) = (m ((c : Thread nD τ).loc main_arg9)) :=
  (W8_of_ne m ρ c main_arg9 (by decide)).trans (at7_arg9 m ρ c)
theorem at8_v10 : W8 m ρ c (Proc.devRef .tc main_v10) = (Layers.normCol (m ((c : Thread nD τ).loc main_arg1))) :=
  (W8_of_ne m ρ c main_v10 (by decide)).trans (at7_v10 m ρ c)
theorem at8_v14 : W8 m ρ c (Proc.devRef .tc main_v14) = (Layers.normCol (m ((c : Thread nD τ).loc main_arg2))) :=
  ((W8_arr m ρ c 1).trans (((dat1 (V7 m ρ) c).arrAt_in 1 rfl _).trans (A_eq1 (V7 m ρ) c 1))).trans (at7_v14 m ρ c)

/-- After the first dense launch its output array is the first layer's output. -/
theorem at8_v30 : W8 m ρ c (Proc.devRef .tc main_v30) = (Layers.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (W8_arr m ρ c 4).trans ((Region1.value (V7 m ρ) c).trans ?_)
  have e0 : V7 m ρ c main_v28 = _ := at7_v28 m ρ c
  have e1 : V7 m ρ c main_v14 = _ := at7_v14 m ρ c
  have e2 : V7 m ρ c main_arg4 = _ := at7_arg4 m ρ c
  have e3 : V7 m ρ c main_v29 = _ := at7_v29 m ρ c
  rw [e0, e1, e2, e3]
  rfl

/-! ### Boundary 9: what is carried over -/

theorem at9_arg1 : W9 m ρ c (Proc.devRef .tc main_arg1) = (m ((c : Thread nD τ).loc main_arg1)) :=
  (W9_of_ne m ρ c main_arg1 (by decide)).trans (at8_arg1 m ρ c)
theorem at9_arg2 : W9 m ρ c (Proc.devRef .tc main_arg2) = (m ((c : Thread nD τ).loc main_arg2)) :=
  (W9_of_ne m ρ c main_arg2 (by decide)).trans (at8_arg2 m ρ c)
theorem at9_arg3 : W9 m ρ c (Proc.devRef .tc main_arg3) = (m ((c : Thread nD τ).loc main_arg3)) :=
  (W9_of_ne m ρ c main_arg3 (by decide)).trans (at8_arg3 m ρ c)
theorem at9_arg6 : W9 m ρ c (Proc.devRef .tc main_arg6) = (m ((c : Thread nD τ).loc main_arg6)) :=
  (W9_of_ne m ρ c main_arg6 (by decide)).trans (at8_arg6 m ρ c)
theorem at9_arg7 : W9 m ρ c (Proc.devRef .tc main_arg7) = (m ((c : Thread nD τ).loc main_arg7)) :=
  (W9_of_ne m ρ c main_arg7 (by decide)).trans (at8_arg7 m ρ c)
theorem at9_arg8 : W9 m ρ c (Proc.devRef .tc main_arg8) = (m ((c : Thread nD τ).loc main_arg8)) :=
  (W9_of_ne m ρ c main_arg8 (by decide)).trans (at8_arg8 m ρ c)
theorem at9_arg9 : W9 m ρ c (Proc.devRef .tc main_arg9) = (m ((c : Thread nD τ).loc main_arg9)) :=
  (W9_of_ne m ρ c main_arg9 (by decide)).trans (at8_arg9 m ρ c)
theorem at9_v10 : W9 m ρ c (Proc.devRef .tc main_v10) = (Layers.normCol (m ((c : Thread nD τ).loc main_arg1))) :=
  ((W9_arr m ρ c 1).trans (((dat2 (V8 m ρ) c).arrAt_in 1 rfl _).trans (A_eq2 (V8 m ρ) c 1))).trans (at8_v10 m ρ c)
theorem at9_v14 : W9 m ρ c (Proc.devRef .tc main_v14) = (Layers.normCol (m ((c : Thread nD τ).loc main_arg2))) :=
  (W9_of_ne m ρ c main_v14 (by decide)).trans (at8_v14 m ρ c)

/-- After the second scaling launch its output array is the first layer's output scaled by the out-degree norm. -/
theorem at9_v31 : W9 m ρ c (Proc.devRef .tc main_v31) = (Layers.scaleRows (Layers.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Layers.normCol (m ((c : Thread nD τ).loc main_arg1)))) :=
  (W9_arr m ρ c 2).trans ((Region2.value (V8 m ρ) c).trans (congrArg₂ Layers.scaleRows (at8_v30 m ρ c) (at8_v10 m ρ c)))

end Cert.KernelIdeal.Flow

end
-- ==== Proof.Region3.lean ====
/-
  Launch 3 (second layer's dense step: scale by the in-degree norm, weights, bias, clamp at zero): the output array after the launch.

  The grid has ten points; point `t` stages rows `10000 t … 10000 t + 9999` of the aggregated table and of the
  one-column norm array, and the whole weight matrix and bias row (the same block at every point). Entry `(p, q)` of
  the body's result is a sum over row `p` of the staged data block against column `q` of the weights, plus bias
  entry `q`, clamped at zero: it depends on row `10000 t + p` of the arrays only. So what point `t` writes back is
  block `t` of the whole-array function `Layers.denseRelu`, and the ten blocks cover the output array.
-/
import proofs.«128982_j67327907332268_1_alg».proof.Proof.Gen.KernelIdeal.Frame
import proofs.«128982_j67327907332268_1_alg».proof.Proof.Bodies
import proofs.«128982_j67327907332268_1_alg».proof.Proof.Layers

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the grid: a window that moves with the grid is at block row `t`, block column 0
    at point `t`; a window that does not move (the weights, the bias row) is at block (0, 0) at every point. -/
theorem idx_facts : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 ∧ t.val < 10 :=
  (by decide +kernel : ∀ t : Fin grid3.N, _)

/-- Row `p` of point `t`'s moving blocks is row `10000 t + p` of the arrays. -/
def row (t : Fin cfg3.N) (p : Fin 10000) : Fin 100000 := ⟨t.val * 10000 + p.val, by have := (idx_facts t).2.2.2.2.2.2.2.2.2.2; omega⟩

theorem emb_in0 (t : Fin cfg3.N) (p : Fin 10000) (q : Fin 128) : ((cfg3.win 0).blk t).view.emb (ix2 p q) = ix2 (row t p) q := by
  obtain ⟨e0, e1, e2, e3, e4, e5, e6, e7, e8, e9, e10⟩ := idx_facts t
  funext a; apply Fin.ext
  match a with
  | ⟨0, _⟩ => show win3_0.index t (0 : Fin 2) * 10000 + 1 * p.val = t.val * 10000 + p.val; omega
  | ⟨1, _⟩ => show win3_0.index t (1 : Fin 2) * 128 + 1 * q.val = q.val; omega

theorem emb_in1 (t : Fin cfg3.N) (p : Fin 10000) (z : Fin 1) : ((cfg3.win 1).blk t).view.emb (ix2 p z) = ix2 (row t p) z := by
  obtain ⟨e0, e1, e2, e3, e4, e5, e6, e7, e8, e9, e10⟩ := idx_facts t
  funext a; apply Fin.ext
  match a with
  | ⟨0, _⟩ => show win3_1.index t (0 : Fin 2) * 10000 + 1 * p.val = t.val * 10000 + p.val; omega
  | ⟨1, _⟩ => show win3_1.index t (1 : Fin 2) * 1 + 1 * z.val = z.val; omega

theorem emb_in2 (t : Fin cfg3.N) (a0 : Fin 128) (a1 : Fin 128) : ((cfg3.win 2).blk t).view.emb (ix2 a0 a1) = ix2 a0 a1 := by
  obtain ⟨e0, e1, e2, e3, e4, e5, e6, e7, e8, e9, e10⟩ := idx_facts t
  funext a; apply Fin.ext
  match a with
  | ⟨0, _⟩ => show win3_2.index t (0 : Fin 2) * 128 + 1 * a0.val = a0.val; omega
  | ⟨1, _⟩ => show win3_2.index t (1 : Fin 2) * 128 + 1 * a1.val = a1.val; omega

theorem emb_in3 (t : Fin cfg3.N) (a0 : Fin 1) (a1 : Fin 128) : ((cfg3.win 3).blk t).view.emb (ix2 a0 a1) = ix2 a0 a1 := by
  obtain ⟨e0, e1, e2, e3, e4, e5, e6, e7, e8, e9, e10⟩ := idx_facts t
  funext a; apply Fin.ext
  match a with
  | ⟨0, _⟩ => show win3_3.index t (0 : Fin 2) * 1 + 1 * a0.val = a0.val; omega
  | ⟨1, _⟩ => show win3_3.index t (1 : Fin 2) * 128 + 1 * a1.val = a1.val; omega

theorem emb_out (t : Fin cfg3.N) (p : Fin 10000) (q : Fin 128) : ((cfg3.win 4).blk t).view.emb (ix2 p q) = ix2 (row t p) q := by
  obtain ⟨e0, e1, e2, e3, e4, e5, e6, e7, e8, e9, e10⟩ := idx_facts t
  funext a; apply Fin.ext
  match a with
  | ⟨0, _⟩ => show win3_4.index t (0 : Fin 2) * 10000 + 1 * p.val = t.val * 10000 + p.val; omega
  | ⟨1, _⟩ => show win3_4.index t (1 : Fin 2) * 128 + 1 * q.val = q.val; omega

/-- What point `t` writes back is block `t` of the layer step applied to the whole input arrays. -/
theorem flushed_eq (c : Dev nD) (t : Fin cfg3.N) :
    (dat3 V c).flushed 4 t = ((cfg3.win 4).blk t).view.read (Elt Ideal) (Layers.denseRelu (V c main_v44) (V c main_v14) (V c main_arg6) (V c main_v45)) := by
  show (cfg3.win 4).cut (grid3.coords t) ((dat3 V c).after 4 t) = _
  rw [after3_4]
  unfold out3_4
  rw [View.canon_unit_zero hz]
  simp only [View.ld_unit_zero (S := S10000x128) hz, View.ld_unit_zero (S := S10000x1) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  show k3_pay1 (iblk3 V c 0 t) (iblk3 V c 1 t) (iblk3 V c 2 t) (iblk3 V c 3 t) (ix2 p q) = Layers.denseRelu (V c main_v44) (V c main_v14) (V c main_arg6) (V c main_v45) (((cfg3.win 4).blk t).view.emb (ix2 p q))
  refine (Bodies.dense3_apply (iblk3 V c 0 t) (iblk3 V c 1 t) (iblk3 V c 2 t) (iblk3 V c 3 t) p q).trans ?_
  rw [emb_out, Layers.denseRelu_apply]
  have h0 : ∀ k : Fin 128, iblk3 V c 0 t (ix2 p k) = V c main_v44 (ix2 (row t p) k) := fun k => by
    show V c main_v44 (((cfg3.win 0).blk t).view.emb (ix2 p k)) = _
    rw [emb_in0]
  have h1 : iblk3 V c 1 t (ix2 p (0 : Fin 1)) = V c main_v14 (ix2 (row t p) (0 : Fin 1)) := by
    show V c main_v14 (((cfg3.win 1).blk t).view.emb (ix2 p (0 : Fin 1))) = _
    rw [emb_in1]
  have h2 : ∀ k : Fin 128, iblk3 V c 2 t (ix2 k q) = V c main_arg6 (ix2 k q) := fun k => by
    show V c main_arg6 (((cfg3.win 2).blk t).view.emb (ix2 k q)) = _
    rw [emb_in2]
  have h3 : iblk3 V c 3 t (ix2 (0 : Fin 1) q) = V c main_v45 (ix2 (0 : Fin 1) q) := by
    show V c main_v45 (((cfg3.win 3).blk t).view.emb (ix2 (0 : Fin 1) q)) = _
    rw [emb_in3]
  simp only [h0, h1, h2, h3]

/-- An index of the output array is in point `t`'s block iff each coordinate is in the block's range on its axis. -/
theorem mem_blk (t : Fin cfg3.N) (i : S100000x128.Idx) :
    i ∈ ((cfg3.win 4).blk t).view.set ↔ ∀ a : Fin 2, win3_4.index t a * S10000x128.size a ≤ (i a).val ∧ (i a).val < win3_4.index t a * S10000x128.size a + S10000x128.size a := by
  show i ∈ ((View.whole main_v46).slice (win3_4.rect t)).set ↔ _
  rw [View.set_slice_whole, Rect.mem_set_unit]
  exact Iff.rfl

/-- Every row of the output array is in the block of the point its number divided by 10000 names. -/
theorem cover (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 10 := N_3
  let t : Fin cfg3.N := ⟨(i 0).val / 10000, by show (i 0).val / 10000 < grid3.N; omega⟩
  have ht : t.val = (i 0).val / 10000 := rfl
  obtain ⟨e0, e1, e2, e3, e4, e5, e6, e7, e8, e9, e10⟩ := idx_facts t
  refine ⟨t, flush3_4 t, ?_⟩
  rw [mem_blk]
  intro a
  match a with
  | ⟨0, _⟩ => show win3_4.index t (0 : Fin 2) * 10000 ≤ (i 0).val ∧ (i 0).val < win3_4.index t (0 : Fin 2) * 10000 + 10000; omega
  | ⟨1, _⟩ => show win3_4.index t (1 : Fin 2) * 128 ≤ (i 1).val ∧ (i 1).val < win3_4.index t (1 : Fin 2) * 128 + 128; omega

/-- The output array after the launch is the layer step of the arrays the launch finds. -/
theorem value (c : Dev nD) : (dat3 V c).arrAt 4 cfg3.N = Layers.denseRelu (V c main_v44) (V c main_v14) (V c main_arg6) (V c main_v45) :=
  (dat3 V c).arrAt_eq_of_cover 4 _ (fun t _ => flushed_eq V c t) cover

end Cert.KernelIdeal.Region3

end
-- ==== Proof.Region4.lean ====
/-
  Launch 4 (third layer, before the edges: scale by the out-degree norm and multiply by the 128 × 64 weights): the output array after the launch.

  The grid has ten points; point `t` stages rows `10000 t … 10000 t + 9999` of the second layer's output and of the
  one-column norm array, and the whole 128 × 64 weight matrix. Entry `(p, q)` of the body's result is the sum over
  row `p` of the scaled data block against column `q` of the weights, so what point `t` writes back is block `t` of
  the whole-array function `Layers.dense64`; the ten blocks cover the output array.
-/
import proofs.«128982_j67327907332268_1_alg».proof.Proof.Gen.KernelIdeal.Frame
import proofs.«128982_j67327907332268_1_alg».proof.Proof.Bodies
import proofs.«128982_j67327907332268_1_alg».proof.Proof.Layers

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the grid: a window that moves with the grid is at block row `t`, block column 0
    at point `t`; a window that does not move (the weights, the bias row) is at block (0, 0) at every point. -/
theorem idx_facts : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = t.val
    ∧ win4_3.index t (1 : Fin 2) = 0 ∧ t.val < 10 :=
  (by decide +kernel : ∀ t : Fin grid4.N, _)

/-- Row `p` of point `t`'s moving blocks is row `10000 t + p` of the arrays. -/
def row (t : Fin cfg4.N) (p : Fin 10000) : Fin 100000 := ⟨t.val * 10000 + p.val, by have := (idx_facts t).2.2.2.2.2.2.2.2; omega⟩

theorem emb_in0 (t : Fin cfg4.N) (p : Fin 10000) (q : Fin 128) : ((cfg4.win 0).blk t).view.emb (ix2 p q) = ix2 (row t p) q := by
  obtain ⟨e0, e1, e2, e3, e4, e5, e6, e7, e8⟩ := idx_facts t
  funext a; apply Fin.ext
  match a with
  | ⟨0, _⟩ => show win4_0.index t (0 : Fin 2) * 10000 + 1 * p.val = t.val * 10000 + p.val; omega
  | ⟨1, _⟩ => show win4_0.index t (1 : Fin 2) * 128 + 1 * q.val = q.val; omega

theorem emb_in1 (t : Fin cfg4.N) (p : Fin 10000) (z : Fin 1) : ((cfg4.win 1).blk t).view.emb (ix2 p z) = ix2 (row t p) z := by
  obtain ⟨e0, e1, e2, e3, e4, e5, e6, e7, e8⟩ := idx_facts t
  funext a; apply Fin.ext
  match a with
  | ⟨0, _⟩ => show win4_1.index t (0 : Fin 2) * 10000 + 1 * p.val = t.val * 10000 + p.val; omega
  | ⟨1, _⟩ => show win4_1.index t (1 : Fin 2) * 1 + 1 * z.val = z.val; omega

theorem emb_in2 (t : Fin cfg4.N) (a0 : Fin 128) (a1 : Fin 64) : ((cfg4.win 2).blk t).view.emb (ix2 a0 a1) = ix2 a0 a1 := by
  obtain ⟨e0, e1, e2, e3, e4, e5, e6, e7, e8⟩ := idx_facts t
  funext a; apply Fin.ext
  match a with
  | ⟨0, _⟩ => show win4_2.index t (0 : Fin 2) * 128 + 1 * a0.val = a0.val; omega
  | ⟨1, _⟩ => show win4_2.index t (1 : Fin 2) * 64 + 1 * a1.val = a1.val; omega

theorem emb_out (t : Fin cfg4.N) (p : Fin 10000) (q : Fin 64) : ((cfg4.win 3).blk t).view.emb (ix2 p q) = ix2 (row t p) q := by
  obtain ⟨e0, e1, e2, e3, e4, e5, e6, e7, e8⟩ := idx_facts t
  funext a; apply Fin.ext
  match a with
  | ⟨0, _⟩ => show win4_3.index t (0 : Fin 2) * 10000 + 1 * p.val = t.val * 10000 + p.val; omega
  | ⟨1, _⟩ => show win4_3.index t (1 : Fin 2) * 64 + 1 * q.val = q.val; omega

/-- What point `t` writes back is block `t` of the layer step applied to the whole input arrays. -/
theorem flushed_eq (c : Dev nD) (t : Fin cfg4.N) :
    (dat4 V c).flushed 3 t = ((cfg4.win 3).blk t).view.read (Elt Ideal) (Layers.dense64 (V c main_v46) (V c main_v10) (V c main_arg8)) := by
  show (cfg4.win 3).cut (grid4.coords t) ((dat4 V c).after 3 t) = _
  rw [after4_3]
  unfold out4_3
  rw [View.canon_unit_zero hz]
  simp only [View.ld_unit_zero (S := S10000x128) hz, View.ld_unit_zero (S := S10000x1) hz, View.ld_unit_zero (S := S128x64) hz]
  funext j
  obtain ⟨p, q, rfl⟩ : ∃ (p : Fin 10000) (q : Fin 64), j = ix2 p q := ⟨j 0, j 1, eq_ix2 j⟩
  show k4_pay1 (iblk4 V c 0 t) (iblk4 V c 1 t) (iblk4 V c 2 t) (ix2 p q) = Layers.dense64 (V c main_v46) (V c main_v10) (V c main_arg8) (((cfg4.win 3).blk t).view.emb (ix2 p q))
  refine (Bodies.dense4_apply (iblk4 V c 0 t) (iblk4 V c 1 t) (iblk4 V c 2 t) p q).trans ?_
  rw [emb_out, Layers.dense64_apply]
  have h0 : ∀ k : Fin 128, iblk4 V c 0 t (ix2 p k) = V c main_v46 (ix2 (row t p) k) := fun k => by
    show V c main_v46 (((cfg4.win 0).blk t).view.emb (ix2 p k)) = _
    rw [emb_in0]
  have h1 : iblk4 V c 1 t (ix2 p (0 : Fin 1)) = V c main_v10 (ix2 (row t p) (0 : Fin 1)) := by
    show V c main_v10 (((cfg4.win 1).blk t).view.emb (ix2 p (0 : Fin 1))) = _
    rw [emb_in1]
  have h2 : ∀ k : Fin 128, iblk4 V c 2 t (ix2 k q) = V c main_arg8 (ix2 k q) := fun k => by
    show V c main_arg8 (((cfg4.win 2).blk t).view.emb (ix2 k q)) = _
    rw [emb_in2]
  simp only [h0, h1, h2]

/-- An index of the output array is in point `t`'s block iff each coordinate is in the block's range on its axis. -/
theorem mem_blk (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v47).slice (win4_3.rect t)).set ↔ _
  rw [View.set_slice_whole, Rect.mem_set_unit]
  exact Iff.rfl

/-- Every row of the output array is in the block of the point its number divided by 10000 names. -/
theorem cover (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  have hN : grid4.N = 10 := N_4
  let t : Fin cfg4.N := ⟨(i 0).val / 10000, by show (i 0).val / 10000 < grid4.N; omega⟩
  have ht : t.val = (i 0).val / 10000 := rfl
  obtain ⟨e0, e1, e2, e3, e4, e5, e6, e7, e8⟩ := idx_facts t
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- The output array after the launch is the layer step of the arrays the launch finds. -/
theorem value (c : Dev nD) : (dat4 V c).arrAt 3 cfg4.N = Layers.dense64 (V c main_v46) (V c main_v10) (V c main_arg8) :=
  (dat4 V c).arrAt_eq_of_cover 3 _ (fun t _ => flushed_eq V c t) cover

end Cert.KernelIdeal.Region4

end
-- ==== Proof.Region5.lean ====
/-
  Launch 5 (third layer, after the edges: scale by the in-degree norm and add the bias): the result array after the launch.

  The grid has ten points; point `t` stages rows `10000 t … 10000 t + 9999` of the aggregated 64-wide table and of the
  one-column norm array, and the bias row. Entry `(p, q)` of the body's result is the data entry times row `p`'s norm
  plus bias entry `q`, so what point `t` writes back is block `t` of the whole-array function `Layers.scaleBias64`;
  the ten blocks cover the result array.
-/
import proofs.«128982_j67327907332268_1_alg».proof.Proof.Gen.KernelIdeal.Frame
import proofs.«128982_j67327907332268_1_alg».proof.Proof.Bodies
import proofs.«128982_j67327907332268_1_alg».proof.Proof.Layers

set_option maxRecDepth 16384

noncomputable section

namespace Cert.KernelIdeal.Region5

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps, decided over the grid: a window that moves with the grid is at block row `t`, block column 0
    at point `t`; a window that does not move (the weights, the bias row) is at block (0, 0) at every point. -/
theorem idx_facts : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 ∧ t.val < 10 :=
  (by decide +kernel : ∀ t : Fin grid5.N, _)

/-- Row `p` of point `t`'s moving blocks is row `10000 t + p` of the arrays. -/
def row (t : Fin cfg5.N) (p : Fin 10000) : Fin 100000 := ⟨t.val * 10000 + p.val, by have := (idx_facts t).2.2.2.2.2.2.2.2; omega⟩

theorem emb_in0 (t : Fin cfg5.N) (p : Fin 10000) (q : Fin 64) : ((cfg5.win 0).blk t).view.emb (ix2 p q) = ix2 (row t p) q := by
  obtain ⟨e0, e1, e2, e3, e4, e5, e6, e7, e8⟩ := idx_facts t
  funext a; apply Fin.ext
  match a with
  | ⟨0, _⟩ => show win5_0.index t (0 : Fin 2) * 10000 + 1 * p.val = t.val * 10000 + p.val; omega
  | ⟨1, _⟩ => show win5_0.index t (1 : Fin 2) * 64 + 1 * q.val = q.val; omega

theorem emb_in1 (t : Fin cfg5.N) (p : Fin 10000) (z : Fin 1) : ((cfg5.win 1).blk t).view.emb (ix2 p z) = ix2 (row t p) z := by
  obtain ⟨e0, e1, e2, e3, e4, e5, e6, e7, e8⟩ := idx_facts t
  funext a; apply Fin.ext
  match a with
  | ⟨0, _⟩ => show win5_1.index t (0 : Fin 2) * 10000 + 1 * p.val = t.val * 10000 + p.val; omega
  | ⟨1, _⟩ => show win5_1.index t (1 : Fin 2) * 1 + 1 * z.val = z.val; omega

theorem emb_in2 (t : Fin cfg5.N) (a0 : Fin 1) (a1 : Fin 64) : ((cfg5.win 2).blk t).view.emb (ix2 a0 a1) = ix2 a0 a1 := by
  obtain ⟨e0, e1, e2, e3, e4, e5, e6, e7, e8⟩ := idx_facts t
  funext a; apply Fin.ext
  match a with
  | ⟨0, _⟩ => show win5_2.index t (0 : Fin 2) * 1 + 1 * a0.val = a0.val; omega
  | ⟨1, _⟩ => show win5_2.index t (1 : Fin 2) * 64 + 1 * a1.val = a1.val; omega

theorem emb_out (t : Fin cfg5.N) (p : Fin 10000) (q : Fin 64) : ((cfg5.win 3).blk t).view.emb (ix2 p q) = ix2 (row t p) q := by
  obtain ⟨e0, e1, e2, e3, e4, e5, e6, e7, e8⟩ := idx_facts t
  funext a; apply Fin.ext
  match a with
  | ⟨0, _⟩ => show win5_3.index t (0 : Fin 2) * 10000 + 1 * p.val = t.val * 10000 + p.val; omega
  | ⟨1, _⟩ => show win5_3.index t (1 : Fin 2) * 64 + 1 * q.val = q.val; omega

/-- What point `t` writes back is block `t` of the layer step applied to the whole input arrays. -/
theorem flushed_eq (c : Dev nD) (t : Fin cfg5.N) :
    (dat5 V c).flushed 3 t = ((cfg5.win 3).blk t).view.read (Elt Ideal) (Layers.scaleBias64 (V c main_v60) (V c main_v14) (V c main_v61)) := by
  show (cfg5.win 3).cut (grid5.coords t) ((dat5 V c).after 3 t) = _
  rw [after5_3]
  unfold out5_3
  rw [View.canon_unit_zero hz]
  simp only [View.ld_unit_zero (S := S10000x64) hz, View.ld_unit_zero (S := S10000x1) hz, View.ld_unit_zero (S := S1x64) hz]
  funext j
  obtain ⟨p, q, rfl⟩ : ∃ (p : Fin 10000) (q : Fin 64), j = ix2 p q := ⟨j 0, j 1, eq_ix2 j⟩
  show k5_pay1 (iblk5 V c 0 t) (iblk5 V c 1 t) (iblk5 V c 2 t) (ix2 p q) = Layers.scaleBias64 (V c main_v60) (V c main_v14) (V c main_v61) (((cfg5.win 3).blk t).view.emb (ix2 p q))
  refine (Bodies.scaleBias5_apply (iblk5 V c 0 t) (iblk5 V c 1 t) (iblk5 V c 2 t) p q).trans ?_
  rw [emb_out, Layers.scaleBias64_apply]
  have h0 : iblk5 V c 0 t (ix2 p q) = V c main_v60 (ix2 (row t p) q) := by
    show V c main_v60 (((cfg5.win 0).blk t).view.emb (ix2 p q)) = _
    rw [emb_in0]
  have h1 : iblk5 V c 1 t (ix2 p (0 : Fin 1)) = V c main_v14 (ix2 (row t p) (0 : Fin 1)) := by
    show V c main_v14 (((cfg5.win 1).blk t).view.emb (ix2 p (0 : Fin 1))) = _
    rw [emb_in1]
  have h2 : iblk5 V c 2 t (ix2 (0 : Fin 1) q) = V c main_v61 (ix2 (0 : Fin 1) q) := by
    show V c main_v61 (((cfg5.win 2).blk t).view.emb (ix2 (0 : Fin 1) q)) = _
    rw [emb_in2]
  simp only [h0, h1, h2]

/-- An index of the output array is in point `t`'s block iff each coordinate is in the block's range on its axis. -/
theorem mem_blk (t : Fin cfg5.N) (i : S100000x64.Idx) :
    i ∈ ((cfg5.win 3).blk t).view.set ↔ ∀ a : Fin 2, win5_3.index t a * S10000x64.size a ≤ (i a).val ∧ (i a).val < win5_3.index t a * S10000x64.size a + S10000x64.size a := by
  show i ∈ ((View.whole main_v62).slice (win5_3.rect t)).set ↔ _
  rw [View.set_slice_whole, Rect.mem_set_unit]
  exact Iff.rfl

/-- Every row of the output array is in the block of the point its number divided by 10000 names. -/
theorem cover (i : S100000x64.Idx) : ∃ t : Fin cfg5.N, (cfg5.win 3).flush t = true ∧ i ∈ ((cfg5.win 3).blk t).view.set := by
  have hi0 : (i 0).val < 100000 := (i 0).isLt
  have hi1 : (i 1).val < 64 := (i 1).isLt
  have hN : grid5.N = 10 := N_5
  let t : Fin cfg5.N := ⟨(i 0).val / 10000, by show (i 0).val / 10000 < grid5.N; omega⟩
  have ht : t.val = (i 0).val / 10000 := rfl
  obtain ⟨e0, e1, e2, e3, e4, e5, e6, e7, e8⟩ := idx_facts t
  refine ⟨t, flush5_3 t, ?_⟩
  rw [mem_blk]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 64 ≤ (i 1).val ∧ (i 1).val < win5_3.index t (1 : Fin 2) * 64 + 64; omega

/-- The output array after the launch is the layer step of the arrays the launch finds. -/
theorem value (c : Dev nD) : (dat5 V c).arrAt 3 cfg5.N = Layers.scaleBias64 (V c main_v60) (V c main_v14) (V c main_v61) :=
  (dat5 V c).arrAt_eq_of_cover 3 _ (fun t _ => flushed_eq V c t) cover

end Cert.KernelIdeal.Region5

end
-- ==== Proof.Flow2.lean ====
/-
  The buffer contents of the idealized kernel's run, boundary by boundary: the second and third layers, and the result.

  `Gen.W10 … Gen.W14` are the contents of the unscoped buffers after the second edge aggregation on the host (10),
  after the second dense launch (11), after the launch that scales and multiplies by the last weights (12), after the
  third edge aggregation (13) and after the last launch (14), when @main returns. The same three kinds of step as
  for the first layer carry every buffer the rest of the run reads; at the end the result buffer holds
  `Layers.network` of the ten arguments' launch contents.
-/
import proofs.«128982_j67327907332268_1_alg».proof.Proof.Flow1
import proofs.«128982_j67327907332268_1_alg».proof.Proof.Region3
import proofs.«128982_j67327907332268_1_alg».proof.Proof.Region4
import proofs.«128982_j67327907332268_1_alg».proof.Proof.Region5

set_option maxRecDepth 16384

noncomputable section

namespace Cert.KernelIdeal.Flow

open Cert.KernelIdeal Cert.KernelIdeal.Gen Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg) (c : Dev nD)

/-! ### Boundary 10: what is carried over -/

theorem at10_arg1 : W10 m ρ c (Proc.devRef .tc main_arg1) = (m ((c : Thread nD τ).loc main_arg1)) := by
  refine Eq.trans ?_ (at9_arg1 m ρ c)
  show StableHlo.after hostOps3 (W9 m ρ c) (Proc.devRef .tc main_arg1) = _
  after_results
theorem at10_arg2 : W10 m ρ c (Proc.devRef .tc main_arg2) = (m ((c : Thread nD τ).loc main_arg2)) := by
  refine Eq.trans ?_ (at9_arg2 m ρ c)
  show StableHlo.after hostOps3 (W9 m ρ c) (Proc.devRef .tc main_arg2) = _
  after_results
theorem at10_arg3 : W10 m ρ c (Proc.devRef .tc main_arg3) = (m ((c : Thread nD τ).loc main_arg3)) := by
  refine Eq.trans ?_ (at9_arg3 m ρ c)
  show StableHlo.after hostOps3 (W9 m ρ c) (Proc.devRef .tc main_arg3) = _
  after_results
theorem at10_arg6 : W10 m ρ c (Proc.devRef .tc main_arg6) = (m ((c : Thread nD τ).loc main_arg6)) := by
  refine Eq.trans ?_ (at9_arg6 m ρ c)
  show StableHlo.after hostOps3 (W9 m ρ c) (Proc.devRef .tc main_arg6) = _
  after_results
theorem at10_arg8 : W10 m ρ c (Proc.devRef .tc main_arg8) = (m ((c : Thread nD τ).loc main_arg8)) := by
  refine Eq.trans ?_ (at9_arg8 m ρ c)
  show StableHlo.after hostOps3 (W9 m ρ c) (Proc.devRef .tc main_arg8) = _
  after_results
theorem at10_arg9 : W10 m ρ c (Proc.devRef .tc main_arg9) = (m ((c : Thread nD τ).loc main_arg9)) := by
  refine Eq.trans ?_ (at9_arg9 m ρ c)
  show StableHlo.after hostOps3 (W9 m ρ c) (Proc.devRef .tc main_arg9) = _
  after_results
theorem at10_v10 : W10 m ρ c (Proc.devRef .tc main_v10) = (Layers.normCol (m ((c : Thread nD τ).loc main_arg1))) := by
  refine Eq.trans ?_ (at9_v10 m ρ c)
  show StableHlo.after hostOps3 (W9 m ρ c) (Proc.devRef .tc main_v10) = _
  after_results
theorem at10_v14 : W10 m ρ c (Proc.devRef .tc main_v14) = (Layers.normCol (m ((c : Thread nD τ).loc main_arg2))) := by
  refine Eq.trans ?_ (at9_v14 m ρ c)
  show StableHlo.after hostOps3 (W9 m ρ c) (Proc.devRef .tc main_v14) = _
  after_results

/-- After the second stretch of edge operations: the aggregated messages, and the second bias as a one-row array. -/
theorem at10_v44 : W10 m ρ c (Proc.devRef .tc main_v44) = (Layers.edgeAgg128 (Layers.scaleRows (Layers.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Layers.normCol (m ((c : Thread nD τ).loc main_arg1)))) (m ((c : Thread nD τ).loc main_arg1)) (m ((c : Thread nD τ).loc main_arg2)) (m ((c : Thread nD τ).loc main_arg3))) := by
  refine (Stages.edges2 (W9 m ρ c)).trans ?_
  rw [at9_v31 m ρ c, at9_arg1 m ρ c, at9_arg2 m ρ c, at9_arg3 m ρ c]
theorem at10_v45 : W10 m ρ c (Proc.devRef .tc main_v45) = Layers.biasRow128 (m ((c : Thread nD τ).loc main_arg7)) := by
  refine Eq.trans ?_ (Layers.row128_eq (m ((c : Thread nD τ).loc main_arg7)) Facts₀.shapeCasts_S128_S1x128)
  refine (Stages.bias2 (W9 m ρ c)).trans ?_
  rw [at9_arg7 m ρ c]

/-! ### Boundary 11: what is carried over -/

theorem at11_arg1 : W11 m ρ c (Proc.devRef .tc main_arg1) = (m ((c : Thread nD τ).loc main_arg1)) :=
  (W11_of_ne m ρ c main_arg1 (by decide)).trans (at10_arg1 m ρ c)
theorem at11_arg2 : W11 m ρ c (Proc.devRef .tc main_arg2) = (m ((c : Thread nD τ).loc main_arg2)) :=
  (W11_of_ne m ρ c main_arg2 (by decide)).trans (at10_arg2 m ρ c)
theorem at11_arg3 : W11 m ρ c (Proc.devRef .tc main_arg3) = (m ((c : Thread nD τ).loc main_arg3)) :=
  (W11_of_ne m ρ c main_arg3 (by decide)).trans (at10_arg3 m ρ c)
theorem at11_arg8 : W11 m ρ c (Proc.devRef .tc main_arg8) = (m ((c : Thread nD τ).loc main_arg8)) :=
  (W11_of_ne m ρ c main_arg8 (by decide)).trans (at10_arg8 m ρ c)
theorem at11_arg9 : W11 m ρ c (Proc.devRef .tc main_arg9) = (m ((c : Thread nD τ).loc main_arg9)) :=
  (W11_of_ne m ρ c main_arg9 (by decide)).trans (at10_arg9 m ρ c)
theorem at11_v10 : W11 m ρ c (Proc.devRef .tc main_v10) = (Layers.normCol (m ((c : Thread nD τ).loc main_arg1))) :=
  (W11_of_ne m ρ c main_v10 (by decide)).trans (at10_v10 m ρ c)
theorem at11_v14 : W11 m ρ c (Proc.devRef .tc main_v14) = (Layers.normCol (m ((c : Thread nD τ).loc main_arg2))) :=
  ((W11_arr m ρ c 1).trans (((dat3 (V10 m ρ) c).arrAt_in 1 rfl _).trans (A_eq3 (V10 m ρ) c 1))).trans (at10_v14 m ρ c)

/-- After the second dense launch its output array is the second layer's output. -/
theorem at11_v46 : W11 m ρ c (Proc.devRef .tc main_v46) = (Layers.layer (Layers.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg3)) (m ((c : Thread nD τ).loc main_arg6)) (m ((c : Thread nD τ).loc main_arg7))) := by
  refine (W11_arr m ρ c 4).trans ((Region3.value (V10 m ρ) c).trans ?_)
  have e0 : V10 m ρ c main_v44 = _ := at10_v44 m ρ c
  have e1 : V10 m ρ c main_v14 = _ := at10_v14 m ρ c
  have e2 : V10 m ρ c main_arg6 = _ := at10_arg6 m ρ c
  have e3 : V10 m ρ c main_v45 = _ := at10_v45 m ρ c
  rw [e0, e1, e2, e3]
  rfl

/-! ### Boundary 12: what is carried over -/

theorem at12_arg1 : W12 m ρ c (Proc.devRef .tc main_arg1) = (m ((c : Thread nD τ).loc main_arg1)) :=
  (W12_of_ne m ρ c main_arg1 (by decide)).trans (at11_arg1 m ρ c)
theorem at12_arg2 : W12 m ρ c (Proc.devRef .tc main_arg2) = (m ((c : Thread nD τ).loc main_arg2)) :=
  (W12_of_ne m ρ c main_arg2 (by decide)).trans (at11_arg2 m ρ c)
theorem at12_arg3 : W12 m ρ c (Proc.devRef .tc main_arg3) = (m ((c : Thread nD τ).loc main_arg3)) :=
  (W12_of_ne m ρ c main_arg3 (by decide)).trans (at11_arg3 m ρ c)
theorem at12_arg9 : W12 m ρ c (Proc.devRef .tc main_arg9) = (m ((c : Thread nD τ).loc main_arg9)) :=
  (W12_of_ne m ρ c main_arg9 (by decide)).trans (at11_arg9 m ρ c)
theorem at12_v14 : W12 m ρ c (Proc.devRef .tc main_v14) = (Layers.normCol (m ((c : Thread nD τ).loc main_arg2))) :=
  (W12_of_ne m ρ c main_v14 (by decide)).trans (at11_v14 m ρ c)

/-- After the fifth launch its output array is the second layer's output scaled and multiplied by the last weights. -/
theorem at12_v47 : W12 m ρ c (Proc.devRef .tc main_v47) = (Layers.dense64 (Layers.layer (Layers.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg3)) (m ((c : Thread nD τ).loc main_arg6)) (m ((c : Thread nD τ).loc main_arg7))) (Layers.normCol (m ((c : Thread nD τ).loc main_arg1))) (m ((c : Thread nD τ).loc main_arg8))) := by
  refine (W12_arr m ρ c 3).trans ((Region4.value (V11 m ρ) c).trans ?_)
  have e0 : V11 m ρ c main_v46 = _ := at11_v46 m ρ c
  have e1 : V11 m ρ c main_v10 = _ := at11_v10 m ρ c
  have e2 : V11 m ρ c main_arg8 = _ := at11_arg8 m ρ c
  rw [e0, e1, e2]

/-! ### Boundary 13: what is carried over -/

theorem at13_v14 : W13 m ρ c (Proc.devRef .tc main_v14) = (Layers.normCol (m ((c : Thread nD τ).loc main_arg2))) := by
  refine Eq.trans ?_ (at12_v14 m ρ c)
  show StableHlo.after hostOps5 (W12 m ρ c) (Proc.devRef .tc main_v14) = _
  after_results

/-- After the third stretch of edge operations: the aggregated 64-wide messages, and the last bias as a one-row array. -/
theorem at13_v60 : W13 m ρ c (Proc.devRef .tc main_v60) = (Layers.edgeAgg64 (Layers.dense64 (Layers.layer (Layers.layer (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg1)) (m ((c : Thread nD τ).loc main_arg2)) (m ((c : Thread nD τ).loc main_arg3)) (m ((c : Thread nD τ).loc main_arg6)) (m ((c : Thread nD τ).loc main_arg7))) (Layers.normCol (m ((c : Thread nD τ).loc main_arg1))) (m ((c : Thread nD τ).loc main_arg8))) (m ((c : Thread nD τ).loc main_arg1)) (m ((c : Thread nD τ).loc main_arg2)) (m ((c : Thread nD τ).loc main_arg3))) := by
  refine (Stages.edges3 (W12 m ρ c)).trans ?_
  rw [at12_v47 m ρ c, at12_arg1 m ρ c, at12_arg2 m ρ c, at12_arg3 m ρ c]
theorem at13_v61 : W13 m ρ c (Proc.devRef .tc main_v61) = Layers.biasRow64 (m ((c : Thread nD τ).loc main_arg9)) := by
  refine Eq.trans ?_ (Layers.row64_eq (m ((c : Thread nD τ).loc main_arg9)) Facts₀.shapeCasts_S64_S1x64)
  refine (Stages.bias3 (W12 m ρ c)).trans ?_
  rw [at12_arg9 m ρ c]

/-! ### Boundary 14: the result -/

/-- When @main returns, the result buffer holds the network of the arguments' launch contents. -/
theorem result : W14 m ρ c (Proc.devRef .tc main_v62) = (Layers.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W14_arr m ρ c 3).trans ((Region5.value (V13 m ρ) c).trans ?_)
  have e0 : V13 m ρ c main_v60 = _ := at13_v60 m ρ c
  have e1 : V13 m ρ c main_v14 = _ := at13_v14 m ρ c
  have e2 : V13 m ρ c main_v61 = _ := at13_v61 m ρ c
  rw [e0, e1, e2]
  rfl

end Cert.KernelIdeal.Flow

end
-- ==== Proof.Reference.lean ====
/-
  The reference's result is the network of its arguments.

  The reference's run ends with its result buffer at the composition of its host operations applied to the launch
  contents of the ten arguments. Grouping that composition by layer — the degree norms, and per layer the scaling, the
  edge aggregation and the dense step — gives `Layers.network` of the arguments, term for term.
-/
import proofs.«128982_j67327907332268_1_alg».proof.Proof.Gen.ReferenceIdeal.Run
import proofs.«128982_j67327907332268_1_alg».proof.Proof.Edges

set_option maxRecDepth 16384

noncomputable section

namespace Cert.ReferenceIdeal.RefValue

open Cert.ReferenceIdeal Cert.ReferenceIdeal.Gen Idealize.ShloMosaic Idealize.ShloMosaic.TcCoe Idealize.SL.Sem

theorem result_eq (m : (ℓ : Loc nD τ sig) → Buf (Elt Ideal) ℓ) (c : Dev nD) :
    Value.res_main_v83 (F := Ideal) m c
      = Layers.network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  unfold Value.res_main_v83 Layers.network Layers.layer Layers.denseRelu Layers.dense64 Layers.scaleBias64 Layers.scaleRows
    Layers.edgeAgg128 Layers.edgeAgg64 Layers.normCol Layers.degNorm Layers.degCount Layers.wrapped Layers.biasRow128 Layers.biasRow64
  rfl

end Cert.ReferenceIdeal.RefValue

end
-- ==== Proof.lean ====
/-
  The certificate of the three-layer graph-convolution kernel against its reference.

  Both programs compute, from the node table, the edge lists with their weights and three weight matrices with their
  biases: the out- and in-degree norms (edge counts clamped at one, to the power −1/2), and three times "scale the rows by
  the out-degree norm, gather along the edges, weight, add into the destinations, scale by the in-degree norm, multiply
  by the weights, add the bias", with a clamp at zero after the first two layers and the last layer's product done
  before the edges. The kernel's program does the irregular steps with the same host operations as the reference and the
  dense steps in six tiled launches; at the ideal instance a launch's output array is the corresponding dense step of
  its whole input arrays (a tile's rows depend on the same rows of the inputs; the rounding to bf16 in front of the
  matrix unit is the identity; the matrix unit's product is the plain sum). So both results are ONE function,
  `Layers.network`, of the arguments — no algebraic law beyond that identification is needed, and the precondition
  is not used.

  The frames of the two kernel programs are the generated ones; the reference's frame is its generated run with the
  result dropped; the idealization rewrote nothing, so `preserves` is trivial.
-/
import proofs.«128982_j67327907332268_1_alg».proof.Defs
import proofs.«128982_j67327907332268_1_alg».proof.Proof.Gen.Kernel
import proofs.«128982_j67327907332268_1_alg».proof.Proof.Gen.Kernel.Frame
import proofs.«128982_j67327907332268_1_alg».proof.Proof.Gen.KernelIdeal
import proofs.«128982_j67327907332268_1_alg».proof.Proof.Gen.KernelIdeal.Frame
import proofs.«128982_j67327907332268_1_alg».proof.Proof.Gen.ReferenceIdeal
import proofs.«128982_j67327907332268_1_alg».proof.Proof.Gen.ReferenceIdeal.Run
import proofs.«128982_j67327907332268_1_alg».proof.Proof.Gen.Pre_finite_inputs
import proofs.«128982_j67327907332268_1_alg».proof.Proof.KernelRun
import proofs.«128982_j67327907332268_1_alg».proof.Proof.Flow2
import proofs.«128982_j67327907332268_1_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The idealized kernel's run, its result named: the network of the arguments' launch contents. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v62)
        = Cert.Layers.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
            (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run Cert.KernelIdeal.defs _ _).mono (fun r h c => ⟨(h c).1.trans (Cert.KernelIdeal.Flow.result m ρ c), (h c).2⟩)
    (Cert.KernelIdeal.Out.run (F := Ideal) m ρ)

/-- From memories that agree on the ten arguments both idealized programs end with the network of those arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
